-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S16x1 : Shape := ⟨2, ![16, 1]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  bcast_S_S16x1 : S_.BroadcastsInDim S16x1 (![] : Fin 0 → Fin S16x1.rank)
  reducesTo_S16x1_S_d0_1 : S16x1.ReducesTo [0, 1] S_

variable [Facts]

def fn {F : FTy → Type} [FloatOps F] (main_arg0 : FVec F S16x1x1024x1024 .f32) (main_arg1 : FVec F S16x1x1024x1024 .f32) (main_arg2 : FVec F S16x1 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  let main_v9 : FVec F S16x1 .f32 := Host.absf main_arg2
  let main_cst_2 : FVec F S_ .f32 := constant S_ .f32 0x7F800000#32
  let main_v10 : FVec F S16x1 .f32 := broadcastInDim S16x1 ![] bcast_S_S16x1 main_cst_2
  let main_v11 : IVec S16x1 1 := cmpf .olt main_v9 main_v10
  let main_c_3 : IVec S_ 1 := constantI S_ 1 1#1
  let main_v12 : IVec S_ 1 := (fun x v => Host.reduce IntOp.andi x v reducesTo_S16x1_S_d0_1 h_S_) main_v11 main_c_3
  let main_v13 : IVec S_ 1 := andi main_v8 main_v12
  main_v13
-- ==== Kernel.lean ====
abbrev S16x1x1024x1024 : Shape := ⟨4, ![16, 1, 1024, 1024]⟩
abbrev S16x1 : Shape := ⟨2, ![16, 1]⟩
abbrev S16x1x128 : Shape := ⟨3, ![16, 1, 128]⟩
abbrev S1x1x256x1024 : Shape := ⟨4, ![1, 1, 256, 1024]⟩
abbrev S1x1x128 : Shape := ⟨3, ![1, 1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 74
  | .vmem => 18
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1, .f32⟩
  | .hbm, ⟨3, _⟩ => ⟨S16x1x128, .f32⟩
  | .hbm, ⟨4, _⟩ => ⟨S16x1x128, .f32⟩
  | .hbm, ⟨5, _⟩ => ⟨S16x1x128, .f32⟩
  | .hbm, ⟨6, _⟩ => ⟨S16x1x128, .f32⟩
  | .hbm, ⟨7, _⟩ => ⟨S16x1x128, .f32⟩
  | .hbm, ⟨8, _⟩ => ⟨S16x1x128, .f32⟩
  | .hbm, ⟨9, _⟩ => ⟨S16x1x128, .f32⟩
  | .hbm, ⟨10, _⟩ => ⟨S16x1x1, .f32⟩
  | .hbm, ⟨11, _⟩ => ⟨S16, .f32⟩
  | .hbm, ⟨12, _⟩ => ⟨S16x1x1, .f32⟩
  | .hbm, ⟨13, _⟩ => ⟨S16, .f32⟩
  | .hbm, ⟨14, _⟩ => ⟨S16x1x1, .f32⟩
  | .hbm, ⟨15, _⟩ => ⟨S16, .f32⟩
  | .hbm, ⟨16, _⟩ => ⟨S16x1x1, .f32⟩
  | .hbm, ⟨17, _⟩ => ⟨S16, .f32⟩
  | .hbm, ⟨18, _⟩ => ⟨S16x1x1, .f32⟩
  | .hbm, ⟨19, _⟩ => ⟨S16, .f32⟩
  | .hbm, ⟨20, _⟩ => ⟨S16x1x1, .f32⟩
  | .hbm, ⟨21, _⟩ => ⟨S16, .f32⟩
  | .hbm, ⟨22, _⟩ => ⟨S16x1x1, .f32⟩
  | .hbm, ⟨23, _⟩ => ⟨S16, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_12 : Ref sig .tc := ⟨.hbm, 63, rfl⟩
abbrev main_v41 : Ref sig .tc := ⟨.hbm, 64, rfl⟩
abbrev main_cst_13 : Ref sig .tc := ⟨.hbm, 65, rfl⟩
abbrev main_v42 : Ref sig .tc := ⟨.hbm, 66, rfl⟩
abbrev main_v43 : Ref sig .tc := ⟨.hbm, 67, rfl⟩
abbrev main_cst_14 : Ref sig .tc := ⟨.hbm, 68, rfl⟩
abbrev main_v44 : Ref sig .tc := ⟨.hbm, 69, rfl⟩
abbrev main_v45 : Ref sig .tc := ⟨.hbm, 70, rfl⟩
abbrev main_cst_15 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  natLt_1_32 : 1 < 32
  inb_S1x1x128_S1x1x128_0_0_0 : ∀ a, (![0, 0, 0] : Fin 3 → Nat) a + S1x1x128.size a ≤ S1x1x128.size a
  h_S1x1x128 : 0 < S1x1x128.numel
  reduces_S256x1024_S256 : S256x1024.Reduces [1] S256
  shapeCasts_S256_S256x1 : S256.ShapeCasts S256x1
  reduces_S256x1_S1 : S256x1.Reduces [0] S1
  shapeCasts_S1_S1x1 : S1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  bcast_S_S16 : S_.BroadcastsInDim S16 (![] : Fin 0 → Fin S16.rank)
  shapeCasts_S16x1_S16 : S16x1.ShapeCasts S16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x1024.size a ≤ S16x1x1024x1024.size a
  hwx0_0 : ∀ i : grid0.Coords, EltTy.bits .f32 = 32 ∨ (Rect.block (s := S16x1x1024x1024) S1x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x1024.size a ≤ S16x1x1024x1024.size a
  hwx0_1 : ∀ i : grid0.Coords, EltTy.bits .f32 = 32 ∨ (Rect.block (s := S16x1x1024x1024) S1x1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S16x1x128.size a
  hwx0_5 : ∀ i : grid0.Coords, EltTy.bits .f32 = 32 ∨ (Rect.block (s := S16x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S16x1x128.size a
  hwx0_6 : ∀ i : grid0.Coords, EltTy.bits .f32 = 32 ∨ (Rect.block (s := S16x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S16x1x128.size a
  hwx0_7 : ∀ i : grid0.Coords, EltTy.bits .f32 = 32 ∨ (Rect.block (s := S16x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S16x1x128.size a
  hwx0_8 : ∀ i : grid0.Coords, EltTy.bits .f32 = 32 ∨ (Rect.block (s := S16x1x128) S1x1x128.size (cc0_transform_8 i) (hinb0_8 i)).WholeWords (EltTy.packing .f32)

variable [Facts₀]

abbrev win0_0 : Pipeline.Window sig grid0 :=
  Pipeline.Window.ofSpec (Memref.whole main_arg0) S1x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_5) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_6) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1x1024x1024 : Shape := ⟨4, ![16, 1, 1024, 1024]⟩
abbrev S16x1 : Shape := ⟨2, ![16, 1]⟩
abbrev S_ : Shape := ⟨0, ![]⟩
abbrev S16 : Shape := ⟨1, ![16]⟩

abbrev nBuf : Space → Nat
  | .hbm => 122
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x1, .f32⟩
  | .hbm, ⟨3, _⟩ => ⟨S_, .f32⟩
  | .hbm, ⟨4, _⟩ => ⟨S16x1x1024x1024, .f32⟩
  | .hbm, ⟨5, _⟩ => ⟨S16x1x1024x1024, .f32⟩
  | .hbm, ⟨6, _⟩ => ⟨S16x1x1024x1024, .f32⟩
  | .hbm, ⟨7, _⟩ => ⟨S16x1x1024x1024, .f32⟩
  | .hbm, ⟨8, _⟩ => ⟨S16x1x1024x1024, .i1⟩
  | .hbm, ⟨9, _⟩ => ⟨S16x1x1024x1024, .f32⟩
  | .hbm, ⟨10, _⟩ => ⟨S16x1x1024x1024, .f32⟩
  | .hbm, ⟨11, _⟩ => ⟨S16x1x1024x1024, .f32⟩
  | .hbm, ⟨12, _⟩ => ⟨S16x1x1024x1024, .f32⟩
  | .hbm, ⟨13, _⟩ => ⟨S16x1x1024x1024, .f32⟩
  | .hbm, ⟨14, _⟩ => ⟨S16x1x1024x1024, .f32⟩
  | .hbm, ⟨15, _⟩ => ⟨S16x1x1024x1024, .f32⟩
  | .hbm, ⟨16, _⟩ => ⟨S16x1x1024x1024, .f32⟩
  | .hbm, ⟨17, _⟩ => ⟨S16x1x1024x1024, .f32⟩
  | .hbm, ⟨18, _⟩ => ⟨S16x1x1024x1024, .f32⟩
  | .hbm, ⟨19, _⟩ => ⟨S16x1x1024x1024, .f32⟩
  | .hbm, ⟨20, _⟩ => ⟨S16x1x1024x1024, .f32⟩
  | .hbm, ⟨21, _⟩ => ⟨S_, .f32⟩
  | .hbm, ⟨22, _⟩ => ⟨S16x1x1024x1024, .f32⟩
  | .hbm, ⟨23, _⟩ => ⟨S16x1x1024x1024, .f32⟩
  | .hbm, ⟨24, _⟩ => ⟨S_, .f32⟩
  | .hbm, ⟨25, _⟩ => ⟨S16x1x1024x1024, .f32⟩
  | .hbm, ⟨26, _⟩ => ⟨S16x1x1024x1024, .f32⟩
  | .hbm, ⟨27, _⟩ => ⟨S16x1x1024x1024, .f32⟩
  | .hbm, ⟨28, _⟩ => ⟨S_, .f32⟩
  | .hbm, ⟨29, _⟩ => ⟨S16x1x1024x1024, .f32⟩
  | .hbm, ⟨30, _⟩ => ⟨S16x1x1024x1024, .f32⟩
  | .hbm, ⟨31, _⟩ => ⟨S_, .f32⟩
  | .hbm, ⟨32, _⟩ => ⟨S16x1x1024x1024, .f32⟩
  | .hbm, ⟨33, _⟩ => ⟨S16x1x1024x1024, .f32⟩
  | .hbm, ⟨34, _⟩ => ⟨S16x1x1024x1024, .f32⟩
  | .hbm, ⟨35, _⟩ => ⟨S16x1x1024x1024, .f32⟩
  | .hbm, ⟨36, _⟩ => ⟨S_, .f32⟩
  | .hbm, ⟨37, _⟩ => ⟨S16x1x1024x1024, .f32⟩
  | .hbm, ⟨38, _⟩ => ⟨S16x1x1024x1024, .f32⟩
  | .hbm, ⟨39, _⟩ => ⟨S_, .f32⟩
  | .hbm, ⟨40, _⟩ => ⟨S16x1x1024x1024, .f32⟩
  | .hbm, ⟨41, _⟩ => ⟨S16x1x1024x1024, .f32⟩
  | .hbm, ⟨42, _⟩ => ⟨S_, .f32⟩
  | .hbm, ⟨43, _⟩ => ⟨S16x1x1024x1024, .f32⟩
  | .hbm, ⟨44, _⟩ => ⟨S16x1x1024x1024, .f32⟩
  | .hbm, ⟨45, _⟩ => ⟨S16x1x1024x1024, .f32⟩
  | .hbm, ⟨46, _⟩ => ⟨S16x1x1024x1024, .f32⟩
  | .hbm, ⟨47, _⟩ => ⟨S_, .f32⟩
  | .hbm, ⟨48, _⟩ => ⟨S16x1x1024x1024, .f32⟩
  | .hbm, ⟨49, _⟩ => ⟨S16x1x1024x1024, .f32⟩
  | .hbm, ⟨50, _⟩ => ⟨S_, .f32⟩
  | .hbm, ⟨51, _⟩ => ⟨S16x1x1024x1024, .f32⟩
  | .hbm, ⟨52, _⟩ => ⟨S16x1x1024x1024, .f32⟩
  | .hbm, ⟨53, _⟩ => ⟨S16x1x1024x1024, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16x1x1024x1024, .f32⟩
  | .hbm, ⟨59, _⟩ => ⟨S_, .f32⟩
  | .hbm, ⟨60, _⟩ => ⟨S16x1, .f32⟩
  | .hbm, ⟨61, _⟩ => ⟨S_, .f32⟩
  | .hbm, ⟨62, _⟩ => ⟨S16x1, .f32⟩
  | .hbm, ⟨63, _⟩ => ⟨S_, .f32⟩
  | .hbm, ⟨64, _⟩ => ⟨S16x1, .f32⟩
  | .hbm, ⟨65, _⟩ => ⟨S16x1, .f32⟩
  | .hbm, ⟨66, _⟩ => ⟨S_, .f32⟩
  | .hbm, ⟨67, _⟩ => ⟨S16x1, .f32⟩
  | .hbm, ⟨68, _⟩ => ⟨S16x1, .f32⟩
  | .hbm, ⟨69, _⟩ => ⟨S_, .f32⟩
  | .hbm, ⟨70, _⟩ => ⟨S16x1, .f32⟩
  | .hbm, ⟨71, _⟩ => ⟨S16x1, .f32⟩
  | .hbm, ⟨72, _⟩ => ⟨S_, .f32⟩
  | .hbm, ⟨73, _⟩ => ⟨S16x1, .f32⟩
  | .hbm, ⟨74, _⟩ => ⟨S16x1, .f32⟩
  | .hbm, ⟨75, _⟩ => ⟨S16x1, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S16x1x1024x1024, .f32⟩
  | .hbm, ⟨94, _⟩ => ⟨S16x1x1024x1024, .i1⟩
  | .hbm, ⟨95, _⟩ => ⟨S16x1x1024x1024, .f32⟩
  | .hbm, ⟨96, _⟩ => ⟨S16x1x1024x1024, .f32⟩
  | .hbm, ⟨97, _⟩ => ⟨S_, .f32⟩
  | .hbm, ⟨98, _⟩ => ⟨S16, .f32⟩
  | .hbm, ⟨99, _⟩ => ⟨S_, .f32⟩
  | .hbm, ⟨100, _⟩ => ⟨S16, .f32⟩
  | .hbm, ⟨101, _⟩ => ⟨S_, .f32⟩
  | .hbm, ⟨102, _⟩ => ⟨S16, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S16, .f32⟩
  | .hbm, ⟨110, _⟩ => ⟨S16, .f32⟩
  | .hbm, ⟨111, _⟩ => ⟨S16, .f32⟩
  | .hbm, ⟨112, _⟩ => ⟨S16, .f32⟩
  | .hbm, ⟨113, _⟩ => ⟨S16, .f32⟩
  | .hbm, ⟨114, _⟩ => ⟨S16, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_cst_12 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_cst_14 : Ref sig .tc := ⟨.hbm, 69, rfl⟩
abbrev main_v38 : Ref sig .tc := ⟨.hbm, 70, rfl⟩
abbrev main_v39 : Ref sig .tc := ⟨.hbm, 71, rfl⟩
abbrev main_cst_15 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_16 : Ref sig .tc := ⟨.hbm, 76, rfl⟩
abbrev main_v43 : Ref sig .tc := ⟨.hbm, 77, rfl⟩
abbrev main_cst_17 : Ref sig .tc := ⟨.hbm, 78, rfl⟩
abbrev main_v44 : Ref sig .tc := ⟨.hbm, 79, rfl⟩
abbrev main_cst_18 : Ref sig .tc := ⟨.hbm, 80, rfl⟩
abbrev main_v45 : Ref sig .tc := ⟨.hbm, 81, rfl⟩
abbrev main_cst_19 : Ref sig .tc := ⟨.hbm, 82, rfl⟩
abbrev main_v46 : Ref sig .tc := ⟨.hbm, 83, rfl⟩
abbrev main_cst_20 : Ref sig .tc := ⟨.hbm, 84, rfl⟩
abbrev main_v47 : Ref sig .tc := ⟨.hbm, 85, rfl⟩
abbrev main_cst_21 : Ref sig .tc := ⟨.hbm, 86, rfl⟩
abbrev main_v48 : Ref sig .tc := ⟨.hbm, 87, rfl⟩
abbrev main_v49 : Ref sig .tc := ⟨.hbm, 88, rfl⟩
abbrev main_cst_22 : Ref sig .tc := ⟨.hbm, 89, rfl⟩
abbrev main_v50 : Ref sig .tc := ⟨.hbm, 90, rfl⟩
abbrev main_v51 : Ref sig .tc := ⟨.hbm, 91, rfl⟩
abbrev main_cst_23 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_24 : Ref sig .tc := ⟨.hbm, 97, rfl⟩
abbrev main_v56 : Ref sig .tc := ⟨.hbm, 98, rfl⟩
abbrev main_cst_25 : Ref sig .tc := ⟨.hbm, 99, rfl⟩
abbrev main_v57 : Ref sig .tc := ⟨.hbm, 100, rfl⟩
abbrev main_cst_26 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_27 : Ref sig .tc := ⟨.hbm, 105, rfl⟩
abbrev main_v61 : Ref sig .tc := ⟨.hbm, 106, rfl⟩
abbrev main_v62 : Ref sig .tc := ⟨.hbm, 107, rfl⟩
abbrev main_cst_28 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_29 : Ref sig .tc := ⟨.hbm, 115, rfl⟩
abbrev main_v69 : Ref sig .tc := ⟨.hbm, 116, rfl⟩
abbrev main_cst_30 : Ref sig .tc := ⟨.hbm, 117, rfl⟩
abbrev main_v70 : Ref sig .tc := ⟨.hbm, 118, rfl⟩
abbrev main_cst_31 : Ref sig .tc := ⟨.hbm, 119, rfl⟩
abbrev main_v71 : Ref sig .tc := ⟨.hbm, 120, rfl⟩
abbrev main_v72 : Ref sig .tc := ⟨.hbm, 121, rfl⟩

abbrev nD : Nat := 1
abbrev τ : Topo := Topo.v7x

variable {F : FTy → Type} [FloatOps F]

class Facts₀ : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  reducesTo_S16x1x1024x1024_S16x1_d2_3 : S16x1x1024x1024.ReducesTo [2, 3] S16x1
  bcast_S_S16x1 : S_.BroadcastsInDim S16x1 (![] : Fin 0 → Fin S16x1.rank)
  reducesTo_S16x1_S_d0_1 : S16x1.ReducesTo [0, 1] S_
  reducesTo_S16x1x1024x1024_S16_d1_2_3 : S16x1x1024x1024.ReducesTo [1, 2, 3] S16
  bcast_S_S16 : S_.BroadcastsInDim S16 (![] : Fin 0 → Fin S16.rank)
  shapeCasts_S16x1_S16 : S16x1.ShapeCasts S16
  reducesTo_S16_S_d0 : S16.ReducesTo [0] S_

variable [Facts₀]

class Facts : Prop extends Facts₀ where

variable [Facts]
-- ==== Proof.KernelPieces.lean ====
/-
  What one run of the kernel body leaves in each statistic's accumulator, as a value.

  The body's run (found case by case) ends with each accumulator holding the pieces its stores wrote. At an image's first
  tile the accumulator is first overwritten with zeros and then with zeros-plus-tile-sum; at a later tile it is overwritten
  once, with its previous contents plus the tile sum. Read back over the whole [1, 1, 128] block, the pieces are the body's
  arithmetic applied to the two loaded tiles and to the accumulator's previous contents (or the zero block).
-/
import proofs.«167630_j28810640621718_1_alg».proof.Proof.Patched.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile: accumulator 0 ends at its previous contents plus this tile's sum. -/
theorem out_B_2 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_2 c i arg2 harg2 arg3 harg3 arg4 harg4 arg5 harg5 arg6 harg6 arg7 harg7 arg8 harg8 arg9 harg9 arg10 harg10 hc0 x0 x1 xo2 xo3 xo4 xo5 xo6 xo7 xo8 = k0_pay19 (k0_pay5 x0 x1) xo2 := by
  unfold out0_B_2
  rw [View.read_writes_eq_canon _ _ _ (cover0_B_2 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg4.read_unread,
    View.ld_unit_zero (S := S1x1x128) hz3, View.ld_unit_zero (S := S1x1x256x1024) hz4]

/-- An image's first tile: accumulator 0 ends at the zero block plus this tile's sum. -/
theorem out_A_2 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_2 c i arg2 harg2 arg3 harg3 arg4 harg4 arg5 harg5 arg6 harg6 arg7 harg7 arg8 harg8 arg9 harg9 arg10 harg10 hc0 x0 x1 = k0_pay19 (k0_pay5 x0 x1) k0_pay12 := by
  unfold out0_A_2
  rw [View.read_writes_eq_canon _ _ _ (cover0_A_2 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 1 ends at its previous contents plus this tile's sum. -/
theorem out_B_3 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_3 c i arg2 harg2 arg3 harg3 arg4 harg4 arg5 harg5 arg6 harg6 arg7 harg7 arg8 harg8 arg9 harg9 arg10 harg10 hc0 x0 x1 xo2 xo3 xo4 xo5 xo6 xo7 xo8 = k0_pay20 (k0_pay7 x0 x1) xo3 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg5.read_unread,
    View.ld_unit_zero (S := S1x1x128) hz3, View.ld_unit_zero (S := S1x1x256x1024) hz4]

/-- An image's first tile: accumulator 1 ends at the zero block plus this tile's sum. -/
theorem out_A_3 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_3 c i arg2 harg2 arg3 harg3 arg4 harg4 arg5 harg5 arg6 harg6 arg7 harg7 arg8 harg8 arg9 harg9 arg10 harg10 hc0 x0 x1 = k0_pay20 (k0_pay7 x0 x1) k0_pay13 := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 2 ends at its previous contents plus this tile's sum. -/
theorem out_B_4 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_4 c i arg2 harg2 arg3 harg3 arg4 harg4 arg5 harg5 arg6 harg6 arg7 harg7 arg8 harg8 arg9 harg9 arg10 harg10 hc0 x0 x1 xo2 xo3 xo4 xo5 xo6 xo7 xo8 = k0_pay22 (k0_pay21 (k0_pay6 x0)) xo4 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg6.read_unread,
    View.ld_unit_zero (S := S1x1x128) hz3, View.ld_unit_zero (S := S1x1x256x1024) hz4]

/-- An image's first tile: accumulator 2 ends at the zero block plus this tile's sum. -/
theorem out_A_4 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_4 c i arg2 harg2 arg3 harg3 arg4 harg4 arg5 harg5 arg6 harg6 arg7 harg7 arg8 harg8 arg9 harg9 arg10 harg10 hc0 x0 x1 = k0_pay22 (k0_pay21 (k0_pay6 x0)) k0_pay14 := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 3 ends at its previous contents plus this tile's sum. -/
theorem out_B_5 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_5 c i arg2 harg2 arg3 harg3 arg4 harg4 arg5 harg5 arg6 harg6 arg7 harg7 arg8 harg8 arg9 harg9 arg10 harg10 hc0 x0 x1 xo2 xo3 xo4 xo5 xo6 xo7 xo8 = k0_pay23 (k0_pay4 x1) xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg7.read_unread,
    View.ld_unit_zero (S := S1x1x128) hz3, View.ld_unit_zero (S := S1x1x256x1024) hz4]

/-- An image's first tile: accumulator 3 ends at the zero block plus this tile's sum. -/
theorem out_A_5 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_5 c i arg2 harg2 arg3 harg3 arg4 harg4 arg5 harg5 arg6 harg6 arg7 harg7 arg8 harg8 arg9 harg9 arg10 harg10 hc0 x0 x1 = k0_pay23 (k0_pay4 x1) k0_pay15 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 4 ends at its previous contents plus this tile's sum. -/
theorem out_B_6 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_6 c i arg2 harg2 arg3 harg3 arg4 harg4 arg5 harg5 arg6 harg6 arg7 harg7 arg8 harg8 arg9 harg9 arg10 harg10 hc0 x0 x1 xo2 xo3 xo4 xo5 xo6 xo7 xo8 = k0_pay24 (k0_pay10 (k0_pay4 x1) (k0_pay6 x0)) xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg8.read_unread,
    View.ld_unit_zero (S := S1x1x128) hz3, View.ld_unit_zero (S := S1x1x256x1024) hz4]

/-- An image's first tile: accumulator 4 ends at the zero block plus this tile's sum. -/
theorem out_A_6 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_6 c i arg2 harg2 arg3 harg3 arg4 harg4 arg5 harg5 arg6 harg6 arg7 harg7 arg8 harg8 arg9 harg9 arg10 harg10 hc0 x0 x1 = k0_pay24 (k0_pay10 (k0_pay4 x1) (k0_pay6 x0)) k0_pay16 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 5 ends at its previous contents plus this tile's sum. -/
theorem out_B_7 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_7 c i arg2 harg2 arg3 harg3 arg4 harg4 arg5 harg5 arg6 harg6 arg7 harg7 arg8 harg8 arg9 harg9 arg10 harg10 hc0 x0 x1 xo2 xo3 xo4 xo5 xo6 xo7 xo8 = k0_pay1 (k0_pay25 (k0_pay11 (k0_pay4 x1) (k0_pay6 x0) k0_pay8)) xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg9.read_unread,
    View.ld_unit_zero (S := S1x1x128) hz3, View.ld_unit_zero (S := S1x1x256x1024) hz4]

/-- An image's first tile: accumulator 5 ends at the zero block plus this tile's sum. -/
theorem out_A_7 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_7 c i arg2 harg2 arg3 harg3 arg4 harg4 arg5 harg5 arg6 harg6 arg7 harg7 arg8 harg8 arg9 harg9 arg10 harg10 hc0 x0 x1 = k0_pay1 (k0_pay25 (k0_pay11 (k0_pay4 x1) (k0_pay6 x0) k0_pay8)) k0_pay17 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

/-- A later tile: accumulator 6 ends at its previous contents plus this tile's sum. -/
theorem out_B_8 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : ¬cond0_0 i)
    (x0 x1 : Vec F S1x1x256x1024 .f32) (xo2 : Vec F S1x1x128 .f32) (xo3 : Vec F S1x1x128 .f32) (xo4 : Vec F S1x1x128 .f32) (xo5 : Vec F S1x1x128 .f32) (xo6 : Vec F S1x1x128 .f32) (xo7 : Vec F S1x1x128 .f32) (xo8 : Vec F S1x1x128 .f32) :
    out0_B_8 c i arg2 harg2 arg3 harg3 arg4 harg4 arg5 harg5 arg6 harg6 arg7 harg7 arg8 harg8 arg9 harg9 arg10 harg10 hc0 x0 x1 xo2 xo3 xo4 xo5 xo6 xo7 xo8 = k0_pay2 (k0_pay9 (k0_pay6 x0) k0_pay8) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 xo2 xo3 xo4 xo5 xo6 xo7 xo8)]
  unfold kernelRun0_B
  dsimp only
  sl_unfold_words
  rw [View.canon_unit_zero hz3]
  simp only [View.readAt_eq_ld, harg2.read_unread, harg3.read_unread, harg10.read_unread,
    View.ld_unit_zero (S := S1x1x128) hz3, View.ld_unit_zero (S := S1x1x256x1024) hz4]

/-- An image's first tile: accumulator 6 ends at the zero block plus this tile's sum. -/
theorem out_A_8 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (hc0 : cond0_0 i)
    (x0 x1 : Vec F S1x1x256x1024 .f32) :
    out0_A_8 c i arg2 harg2 arg3 harg3 arg4 harg4 arg5 harg5 arg6 harg6 arg7 harg7 arg8 harg8 arg9 harg9 arg10 harg10 hc0 x0 x1 = k0_pay2 (k0_pay9 (k0_pay6 x0) k0_pay8) k0_pay18 := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S1x1x128) hz3, View.ld_unit_zero (S := S1x1x256x1024) hz4]

end Cert.KernelIdeal.Pieces

end
-- ==== Proof.PixelTerms.lean ====
/-
  The per-pixel terms of the segmentation loss, as functions of one logit `x` and one target `t` on the extended reals,
  spelt with the float operations read exactly: the cross-entropy softplus(x) − x·t with softplus as
  max(x, 0) + log1p(exp(−|x|)), the sigmoid p = 1/(1 + exp(−x)), the focal term
  (t/4 + 3(1 − t)/4) · ce · (1 − p_t)² with p_t = p·t + (1 − p)(1 − t), the thresholded prediction [p > 1/2], and the
  products p·t and [p > 1/2]·t. Also the few facts about them that need the inputs to be real numbers: the sigmoid of a
  real is a real, and a real raised to the power 2 is its product with itself.
-/
import Mathlib.Analysis.SpecialFunctions.Pow.Real
import Idealize.ShloMosaic.PureOps.Ideal
import Idealize.ShloMosaic.PureOps.Ideal.Laws
import Idealize.ShloMosaic.PureOps.Vector

noncomputable section

namespace Cert.PixelTerms

open Idealize.ShloMosaic

/-- The f32 words the programs use. -/
abbrev w0 : Ideal .f32 := FloatOps.ofBits .f32 0x00000000#32
abbrev w1 : Ideal .f32 := FloatOps.ofBits .f32 0x3F800000#32
abbrev wHalf : Ideal .f32 := FloatOps.ofBits .f32 0x3F000000#32
abbrev wQuarter : Ideal .f32 := FloatOps.ofBits .f32 0x3E800000#32
abbrev wThreeQ : Ideal .f32 := FloatOps.ofBits .f32 0x3F400000#32
abbrev w2 : Ideal .f32 := FloatOps.ofBits .f32 0x40000000#32

/-- softplus(x) − x·t, with the guard for an unordered difference (never taken on the extended reals). -/
def ce (x t : Ideal .f32) : Ideal .f32 :=
  FloatOps.subf
    (Scalar.select (FloatOps.cmpf .one (FloatOps.subf x w0) (FloatOps.subf x w0)) (FloatOps.addf x w0)
      (FloatOps.addf (FloatOps.maximumf x w0)
        (FloatOps.log1p (FloatOps.exp (FloatOps.subf w0 (FloatOps.absf (FloatOps.subf x w0)))))))
    (FloatOps.mulf x t)

/-- The sigmoid. -/
def sigm (x : Ideal .f32) : Ideal .f32 := FloatOps.logistic x

/-- 1 − p_t, with p_t = p·t + (1 − p)(1 − t). -/
def miss (x t : Ideal .f32) : Ideal .f32 :=
  FloatOps.subf w1 (FloatOps.addf (FloatOps.mulf (sigm x) t) (FloatOps.mulf (FloatOps.subf w1 (sigm x)) (FloatOps.subf w1 t)))

/-- The class weight t/4 + 3(1 − t)/4 times the cross-entropy. -/
def weighted (x t : Ideal .f32) : Ideal .f32 :=
  FloatOps.mulf (FloatOps.addf (FloatOps.mulf wQuarter t) (FloatOps.mulf wThreeQ (FloatOps.subf w1 t))) (ce x t)

/-- The focal term: the weighted cross-entropy times (1 − p_t)², the square written as a product. -/
def focal (x t : Ideal .f32) : Ideal .f32 :=
  FloatOps.mulf (weighted x t) (FloatOps.mulf (miss x t) (miss x t))

/-- The thresholded prediction [p > 1/2] as a float: the comparison bit widened and read as an integer. -/
def hard (x : Ideal .f32) : Ideal .f32 :=
  FloatOps.sitofp .f32 ((FloatOps.cmpf .ogt (sigm x) wHalf).setWidth 32)

def soft_t (x t : Ideal .f32) : Ideal .f32 := FloatOps.mulf (sigm x) t
def hard_t (x t : Ideal .f32) : Ideal .f32 := FloatOps.mulf (hard x) t

/-! ## The words -/

theorem w0_eq : w0 = (0 : EReal) := Ideal.ofBits_zero_f32

theorem w1_eq : w1 = ((1 : ℝ) : EReal) := by
  show Ideal.ofBits .f32 0x3F800000#32 = _
  simp [Ideal.ofBits, Ideal.ieee]
  rw [← EReal.coe_mul]
  norm_num

theorem w2_eq : w2 = ((2 : ℝ) : EReal) := by
  show Ideal.ofBits .f32 0x40000000#32 = _
  simp [Ideal.ofBits, Ideal.ieee]
  rw [← EReal.coe_mul]
  norm_num

/-- 0 − y is −y: the kernel's and the host's spelling of a negation. -/
theorem neg_two_ways (y : Ideal .f32) : FloatOps.subf w0 y = FloatOps.hostNegf y := by
  show w0 - y = -y
  rw [w0_eq, zero_sub]

/-! ## Real inputs -/

/-- The sigmoid of a real is a real. -/
theorem sig_real (r : ℝ) : ∃ s : ℝ, sigm (r : EReal) = (s : EReal) := by
  refine ⟨1 * (1 / (1 + Real.exp (-r))), ?_⟩
  show Ideal.logistic (r : EReal) = _
  unfold Ideal.logistic
  have hpos : (1 + Real.exp (-r) : ℝ) ≠ 0 := by positivity
  rw [← EReal.coe_neg, Ideal.exp_coe, ← EReal.coe_one, ← EReal.coe_add, Ideal.div_coe hpos, ← EReal.coe_mul]

/-- For real inputs 1 − p_t is a real. -/
theorem miss_real (r u : ℝ) : ∃ q : ℝ, miss (r : EReal) (u : EReal) = (q : EReal) := by
  obtain ⟨s, hs⟩ := sig_real r
  refine ⟨1 - (s * u + (1 - s) * (1 - u)), ?_⟩
  show w1 - (sigm (r : EReal) * (u : EReal) + (w1 - sigm (r : EReal)) * (w1 - (u : EReal))) = _
  rw [hs, w1_eq]
  simp only [← EReal.coe_mul, ← EReal.coe_add, ← EReal.coe_sub]

/-- A real to the power 2 (the host's power with a constant exponent) is its product with itself. -/
theorem pow_two (q : ℝ) : Ideal.pow (q : EReal) w2 = (q : EReal) * (q : EReal) := by
  rw [w2_eq]
  show ((Real.rpow q 2 : ℝ) : EReal) = _
  rw [← EReal.coe_mul]
  congr 1
  show q ^ (2 : ℝ) = q * q
  rw [Real.rpow_two, sq]

/-- The comparison bit read unsigned is the bit widened to 32 and read signed: both are 0 or 1. -/
theorem bit_two_ways (b : BitVec 1) : (((b.setWidth 32).toInt : ℝ) : EReal) = ((b.toNat : ℝ) : EReal) := by
  have h : ∀ b : BitVec 1, (b.setWidth 32).toInt = (b.toNat : ℤ) := by decide
  rw [h b]
  simp

end Cert.PixelTerms

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KernelPayload.lean ====
/-
  What one step of the statistics kernel computes, read at an index on the extended reals.

  A step loads a [256, 1024] tile of logits and of targets, forms seven pointwise arrays from them — the cross-entropy,
  the focal term, the sigmoid, the target itself, sigmoid × target, [p > 1/2] × target and [p > 1/2] — and adds the sum
  of each over the tile to every lane of that statistic's [1, 1, 128] accumulator. Here: each pointwise array at (r, k)
  is the corresponding per-pixel term of the tile's entries at (0, 0, r, k), and the accumulator update at any lane is
  the old lane plus the double sum over rows and columns.
-/
import proofs.«167630_j28810640621718_1_alg».proof.Proof.Gen.KernelIdeal.Skeleton
import proofs.«167630_j28810640621718_1_alg».proof.Proof.PixelTerms
import proofs.«167630_j28810640621718_1_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.PixelTerms

/-- The tile recast [1,1,256,1024] → [256,1024] reads (r, k) at (0, 0, r, k). -/
theorem tile_at (v : Vec Ideal S1x1x256x1024 .f32) (h : S1x1x256x1024.ShapeCasts S256x1024) (r : Fin 256) (k : Fin 1024) :
    shapeCast S256x1024 v h (ix2 r k) = v (ix4 (0 : Fin 1) (0 : Fin 1) r k) :=
  shapeCast_apply v h _ _ (by
    rw [Shape.rowMajor_val_four, Shape.rowMajor_val_two]
    show ((0 * 1 + 0) * 256 + r.val) * 1024 + k.val = r.val * 1024 + k.val
    omega)

variable (x0 x1 : Vec Ideal S1x1x256x1024 .f32) (r : Fin 256) (k : Fin 1024)

theorem logits_at : k0_pay3 (F := Ideal) x0 (ix2 r k) = x0 (ix4 (0 : Fin 1) (0 : Fin 1) r k) := tile_at x0 _ r k
theorem targets_at : k0_pay4 (F := Ideal) x1 (ix2 r k) = x1 (ix4 (0 : Fin 1) (0 : Fin 1) r k) := tile_at x1 _ r k

theorem ce_at : k0_pay5 (F := Ideal) x0 x1 (ix2 r k)
    = ce (x0 (ix4 (0 : Fin 1) (0 : Fin 1) r k)) (x1 (ix4 (0 : Fin 1) (0 : Fin 1) r k)) := by
  rw [← logits_at x0 r k, ← targets_at x1 r k]
  rfl

theorem sig_at : k0_pay6 (F := Ideal) x0 (ix2 r k) = sigm (x0 (ix4 (0 : Fin 1) (0 : Fin 1) r k)) := by
  rw [← logits_at x0 r k]
  rfl

theorem focal_at : k0_pay7 (F := Ideal) x0 x1 (ix2 r k)
    = focal (x0 (ix4 (0 : Fin 1) (0 : Fin 1) r k)) (x1 (ix4 (0 : Fin 1) (0 : Fin 1) r k)) := by
  rw [← logits_at x0 r k, ← targets_at x1 r k]
  rfl

theorem soft_t_at : k0_pay10 (F := Ideal) (k0_pay4 x1) (k0_pay6 x0) (ix2 r k)
    = soft_t (x0 (ix4 (0 : Fin 1) (0 : Fin 1) r k)) (x1 (ix4 (0 : Fin 1) (0 : Fin 1) r k)) := by
  rw [← logits_at x0 r k, ← targets_at x1 r k]
  rfl

theorem hard_at : k0_pay9 (F := Ideal) (k0_pay6 x0) k0_pay8 (ix2 r k) = hard (x0 (ix4 (0 : Fin 1) (0 : Fin 1) r k)) := by
  rw [← logits_at x0 r k]
  rfl

theorem hard_t_at : k0_pay11 (F := Ideal) (k0_pay4 x1) (k0_pay6 x0) k0_pay8 (ix2 r k)
    = hard_t (x0 (ix4 (0 : Fin 1) (0 : Fin 1) r k)) (x1 (ix4 (0 : Fin 1) (0 : Fin 1) r k)) := by
  rw [← logits_at x0 r k, ← targets_at x1 r k]
  rfl

/-! ## The accumulator update -/

/-- The [256,1024] array summed along its rows, kept as a column, summed down the column, and recast to [1,1,1]: its one
    entry is the double sum. -/
theorem total_at (v : FVec Ideal S256x1024 .f32) (j : S1x1x128.Idx) (xo : Vec Ideal S1x1x128 .f32) :
    k0_pay19 (F := Ideal) v xo j = xo j + ∑ r : Fin 256, ∑ k : Fin 1024, v (ix2 r k) := by
  unfold k0_pay19
  show shapeCast S1x1x128 xo _ j + broadcastTo S1x1x128 _ _ j = _
  rw [shapeCast_self]
  congr 1
  rw [broadcastTo_apply _ _ j (ix3 (0 : Fin 1) (0 : Fin 1) (0 : Fin 1)) (fun a => by
    match a with
    | ⟨0, _⟩ => rfl
    | ⟨1, _⟩ => rfl
    | ⟨2, _⟩ => rfl)]
  rw [shapeCast_self]
  rw [shapeCast_apply _ _ (ix3 (0 : Fin 1) (0 : Fin 1) (0 : Fin 1)) (ix2 (0 : Fin 1) (0 : Fin 1)) (by
    rw [Shape.rowMajor_val_two, Shape.rowMajor_val_three]; rfl)]
  rw [shapeCast_apply _ _ (ix2 (0 : Fin 1) (0 : Fin 1)) (ix1 (0 : Fin 1)) (by
    rw [Shape.rowMajor_val_one, Shape.rowMajor_val_two]; rfl)]
  refine (Ideal.multiReduction_add_single _ 0x00000000#32 reduces_S256x1_S1 (.inl rfl) rfl (ix1 (0 : Fin 1))).trans ?_
  refine Finset.sum_congr rfl fun r _ => ?_
  have e : reduces_S256x1_S1.lift (ix1 (0 : Fin 1)) r = ix2 r (0 : Fin 1) := by
    funext d
    apply Fin.ext
    match d with
    | ⟨0, _⟩ => rfl
    | ⟨1, _⟩ => rfl
  rw [e]
  exact (Cert.Gcn.Lib.shapeCast_a_a1_apply (a := 256) _ shapeCasts_S256_S256x1 r (0 : Fin 1)).trans
    (Cert.Gcn.Lib.rowsum_apply (a := 256) (b := 1024) v reduces_S256x1024_S256 (.inl rfl) rfl r)

end Cert.KernelIdeal.Payload

end
-- ==== Proof.LossFormula.lean ====
/-
  The loss as one function of eight vectors of per-image numbers: the per-image sums of the cross-entropy, of the focal
  term, of the sigmoid, of the target, of sigmoid × target, of [p > 1/2] × target and of [p > 1/2], and the predicted
  IoU. With N = 16·1024·1024, S = 1e-6 (as its f32 word) and sums over the 16 images:

    focal      = Σ focalS / N
    dice       = 1 − (Σ_b (2·ptS_b + S) / ((pS_b + tS_b) + S)) / 16
    boundary   = 2 · (Σ ceS / N)
    actual_b   = (pbtS_b + S) / (((pbS_b + tS_b) − pbtS_b) + S)
    iou_loss   = (Σ_b (iou_b − actual_b)²) / 16
    loss       = ((focal + dice) + ½·boundary) + 0.1·iou_loss

  every quotient the exact division of the extended reals and every constant its f32 word read exactly, each host sum
  started from the zero word. Both programs end in this function of the same eight vectors.
-/
import Mathlib.Algebra.BigOperators.Fin
import proofs.«167630_j28810640621718_1_alg».proof.Proof.PixelTerms

noncomputable section

open scoped BigOperators

namespace Cert.LossFormula

open Idealize.ShloMosaic Cert.PixelTerms

/-- 16·1024·1024, 16, 1e-6 and 0.1 as the programs write them. -/
abbrev wN : Ideal .f32 := FloatOps.ofBits .f32 0x4B800000#32
abbrev w16 : Ideal .f32 := FloatOps.ofBits .f32 0x41800000#32
abbrev wSmooth : Ideal .f32 := FloatOps.ofBits .f32 0x358637BD#32
abbrev wTenth : Ideal .f32 := FloatOps.ofBits .f32 0x3DCCCCCD#32

/-- The measured IoU of image `b` from its three counts. -/
def actual (tS pbtS pbS : Fin 16 → EReal) (b : Fin 16) : EReal :=
  Ideal.div (pbtS b + wSmooth) (((pbS b + tS b) - pbtS b) + wSmooth)

/-- The dice ratio of image `b`. -/
def ratio (pS tS ptS : Fin 16 → EReal) (b : Fin 16) : EReal :=
  Ideal.div (w2 * ptS b + wSmooth) ((pS b + tS b) + wSmooth)

def loss (ceS focalS pS tS ptS pbtS pbS iou : Fin 16 → EReal) : EReal :=
  ((Ideal.div (w0 + ∑ b, focalS b) wN + (w1 - Ideal.div (w0 + ∑ b, ratio pS tS ptS b) w16))
      + wHalf * (w2 * Ideal.div (w0 + ∑ b, ceS b) wN))
    + wTenth * Ideal.div (w0 + ∑ b, (iou b - actual tS pbtS pbS b) * (iou b - actual tS pbtS pbS b)) w16

end Cert.LossFormula

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LibPlaneSums.lean ====
/-
  The host's sum of a rank-4 array [n0, 1, n2, n3] over its two trailing axes (into [n0, 1]) or over every axis but the
  first (into [n0]), read at an index on the extended reals: the initial value plus the double sum over the trailing
  two coordinates of the entries of image `a` — `jnp.sum(x, axis=(2, 3))` and `jnp.sum(x, axis=(1, 2, 3))` of an
  NCHW array with one channel. (The library reads a host sum over one axis, or into a result of one entry; these are
  the two-axis and three-axis forms between them.) Also a sum over the indices of a rank-1 array as a sum over its
  coordinate.
-/
import Idealize.ShloMosaic.PureOps.Ideal.Laws
import Idealize.ShloMosaic.Lib.ValueIdx
import proofs.«167630_j28810640621718_1_alg».proof.Proof.LibIdxSums

open scoped BigOperators

namespace Cert.LibPlaneSums

open Idealize.ShloMosaic Idealize.ShloMosaic.ValueIdx Cert.LibIdxSums

variable {n0 n2 n3 : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The sum over the entries of image `a`, selected from all entries by a test on the first coordinate. -/
theorem sum_image (x : (⟨4, ![n0, 1, n2, n3]⟩ : Shape).Idx → EReal) (a : Fin n0)
    (p : (⟨4, ![n0, 1, n2, n3]⟩ : Shape).Idx → Prop) [DecidablePred p]
    (hp : ∀ a' u c d, p (ix4 a' u c d) ↔ a' = a) :
    ∑ i ∈ Finset.univ.filter p, x i = ∑ c : Fin n2, ∑ d : Fin n3, x (ix4 a (0 : Fin 1) c d) := by
  rw [Finset.sum_filter, sum_idx4, Finset.sum_eq_single a]
  · rw [Fin.sum_univ_one]
    refine Finset.sum_congr rfl fun c _ => Finset.sum_congr rfl fun d _ => ?_
    rw [if_pos ((hp a 0 c d).mpr rfl)]
  · intro a' _ hne
    refine Finset.sum_eq_zero fun u _ => Finset.sum_eq_zero fun c _ => Finset.sum_eq_zero fun d _ => ?_
    rw [if_neg fun h => hne ((hp a' u c d).mp h)]
  · intro h
    exact absurd (Finset.mem_univ a) h

/-- `jnp.sum(x, axis=(2, 3))` of a one-channel NCHW array, at (a, u): the initial value plus image `a`'s sum. -/
theorem hostSum_planes (h' : (⟨4, ![n0, 1, n2, n3]⟩ : Shape).ReducesTo [2, 3] ⟨2, ![n0, 1]⟩)
    (x : (⟨4, ![n0, 1, n2, n3]⟩ : Shape).Idx → EReal) (init : EReal) (a : Fin n0) (u : Fin 1) :
    Ideal.hostReduceAdd h' x init (ix2 a u) = init + ∑ c : Fin n2, ∑ d : Fin n3, x (ix4 a (0 : Fin 1) c d) := by
  unfold Ideal.hostReduceAdd
  congr 1
  refine sum_image x a _ fun a' u' c d => ?_
  constructor
  · intro e
    exact Fin.ext (congrArg Fin.val (congrFun e 0))
  · rintro rfl
    funext b
    apply Fin.ext
    match b with
    | ⟨0, _⟩ => rfl
    | ⟨1, _⟩ => show u'.val = u.val; omega

/-- `jnp.sum(x, axis=(1, 2, 3))` of a one-channel NCHW array, at a: the initial value plus image `a`'s sum. -/
theorem hostSum_images (h' : (⟨4, ![n0, 1, n2, n3]⟩ : Shape).ReducesTo [1, 2, 3] ⟨1, ![n0]⟩)
    (x : (⟨4, ![n0, 1, n2, n3]⟩ : Shape).Idx → EReal) (init : EReal) (a : Fin n0) :
    Ideal.hostReduceAdd h' x init (ix1 a) = init + ∑ c : Fin n2, ∑ d : Fin n3, x (ix4 a (0 : Fin 1) c d) := by
  unfold Ideal.hostReduceAdd
  congr 1
  refine sum_image x a _ fun a' u' c d => ?_
  constructor
  · intro e
    exact Fin.ext (congrArg Fin.val (congrFun e 0))
  · rintro rfl
    funext b
    apply Fin.ext
    match b with
    | ⟨0, _⟩ => rfl

end Cert.LibPlaneSums
-- ==== Proof.KernelTail.lean ====
/-
  The host lines after the kernel call, as one function of the seven [16, 1, 128] statistic arrays and the predicted
  IoU, and its value on the extended reals: lane 0 of each image's seven accumulators and the image's predicted IoU go
  through the loss formula (Proof/LossFormula.lean). Each array contributes only its entries (b, 0, 0).
-/
import proofs.«167630_j28810640621718_1_alg».proof.Proof.Gen.KernelIdeal
import proofs.«167630_j28810640621718_1_alg».proof.Proof.LossFormula
import proofs.«167630_j28810640621718_1_alg».proof.Proof.LibPlaneSums
import Idealize.ShloMosaic.Lib.Pipeline.Value
import Idealize.ShloMosaic.Lib.ValueIdx
import Idealize.ShloMosaic.PureOps.Ideal.Laws

noncomputable section

open scoped BigOperators

namespace Cert.KernelIdeal.Tail

open Idealize.ShloMosaic Idealize.ShloMosaic.ValueIdx Cert.KernelIdeal Cert.PixelTerms Cert.LossFormula Facts₀

variable {F : FTy → Type} [FloatOps F]

/-- Lane 0 of every image's accumulator, as a 16-vector: the slice [0:16, 0:1, 0:1] recast to [16]. -/
def pick (O : FVec F S16x1x128 .f32) : FVec F S16 .f32 :=
  shapeCast S16 (extractStridedSlice S16x1x1 ![0, 0, 0] O slices_S16x1x128_S16x1x1_0_0_0) shapeCasts_S16x1x1_S16

/-- A scalar constant spread over the 16 images. -/
def spread (w : BitVec 32) : FVec F S16 .f32 := broadcastInDim S16 ![] bcast_S_S16 (constant S_ .f32 w)

/-- A 16-vector summed from the zero word. -/
def sum16 (x : FVec F S16 .f32) : FVec F S_ .f32 :=
  Host.reduceAdd x (constant S_ .f32 0x00000000#32) reducesTo_S16_S_d0 h_S_

/-- The host lines after the call: %1 … %47 of @main, from the call's seven results and %arg2. -/
def tailFn (O2 O3 O4 O5 O6 O7 O8 : FVec F S16x1x128 .f32) (A : FVec F S16x1 .f32) : FVec F S_ .f32 :=
  let v16 := Host.divf (sum16 (pick O2)) (constant S_ .f32 0x4B800000#32)
  let v18 := Host.divf (sum16 (pick O3)) (constant S_ .f32 0x4B800000#32)
  let v19 := mulf (constant S_ .f32 0x40000000#32) v16
  let v20 := addf (pick O4) (pick O5)
  let v24 := addf (mulf (spread 0x40000000#32) (pick O6)) (spread 0x358637BD#32)
  let v27 := Host.divf v24 (addf v20 (spread 0x358637BD#32))
  let v30 := subf (constant S_ .f32 0x3F800000#32) (Host.divf (sum16 v27) (constant S_ .f32 0x41800000#32))
  let v32 := subf (addf (pick O8) (pick O5)) (pick O7)
  let v37 := Host.divf (addf (pick O7) (spread 0x358637BD#32)) (addf v32 (spread 0x358637BD#32))
  let v39 := subf (shapeCast S16 A shapeCasts_S16x1_S16) v37
  let v42 := Host.divf (sum16 (mulf v39 v39)) (constant S_ .f32 0x41800000#32)
  addf (addf (addf v18 v30) (mulf (constant S_ .f32 0x3F000000#32) v19)) (mulf (constant S_ .f32 0x3DCCCCCD#32) v42)

/-! ## Read at an index, on the extended reals -/

theorem pick_at (O : FVec Ideal S16x1x128 .f32) (b : Fin 16) : pick O (ix1 b) = O (ix3 b (0 : Fin 1) (0 : Fin 128)) := by
  unfold pick
  rw [shapeCast_apply _ _ (ix1 b) (ix3 b (0 : Fin 1) (0 : Fin 1)) (by
    rw [Shape.rowMajor_val_three, Shape.rowMajor_val_one]
    show (b.val * 1 + 0) * 1 + 0 = b.val
    omega)]
  exact extractStridedSlice_apply _ O _ _ (ix3 b (0 : Fin 1) (0 : Fin 128)) (fun a => by
    match a with
    | ⟨0, _⟩ => show b.val = 0 + b.val; omega
    | ⟨1, _⟩ => rfl
    | ⟨2, _⟩ => rfl)

theorem iou_at (A : FVec Ideal S16x1 .f32) (b : Fin 16) :
    shapeCast S16 A shapeCasts_S16x1_S16 (ix1 b) = A (ix2 b (0 : Fin 1)) :=
  shapeCast_apply A _ _ _ (by
    rw [Shape.rowMajor_val_two, Shape.rowMajor_val_one]
    show b.val * 1 + 0 = b.val
    omega)

theorem spread_at (w : BitVec 32) (i : S16.Idx) : spread (F := Ideal) w i = Ideal.ofBits .f32 w := by
  unfold spread
  exact broadcastInDim_apply _ bcast_S_S16 _ i ix0 (fun a => a.elim0)

theorem sum16_at (x : FVec Ideal S16 .f32) (j : S_.Idx) :
    sum16 x j = Ideal.ofBits .f32 0x00000000#32 + ∑ b : Fin 16, x (ix1 b) := by
  unfold sum16
  simp only [Host.reduceAdd, Ideal.hostReduceAdd_def]
  refine (Ideal.hostReduceAdd_total reducesTo_S16_S_d0 (fun b => b.elim0) x _ j).trans ?_
  rw [Cert.LibPlaneSums.sum_idx1]
  rfl

/-- The tail is the loss formula of the lane-0 entries. -/
theorem tail_at (O2 O3 O4 O5 O6 O7 O8 : FVec Ideal S16x1x128 .f32) (A : FVec Ideal S16x1 .f32) (j : S_.Idx) :
    tailFn O2 O3 O4 O5 O6 O7 O8 A j
      = loss (fun b => O2 (ix3 b (0 : Fin 1) (0 : Fin 128))) (fun b => O3 (ix3 b (0 : Fin 1) (0 : Fin 128)))
          (fun b => O4 (ix3 b (0 : Fin 1) (0 : Fin 128))) (fun b => O5 (ix3 b (0 : Fin 1) (0 : Fin 128)))
          (fun b => O6 (ix3 b (0 : Fin 1) (0 : Fin 128))) (fun b => O7 (ix3 b (0 : Fin 1) (0 : Fin 128)))
          (fun b => O8 (ix3 b (0 : Fin 1) (0 : Fin 128))) (fun b => A (ix2 b (0 : Fin 1))) := by
  unfold tailFn loss ratio actual
  dsimp only
  simp only [addf_apply, subf_apply, mulf_apply, Host.divf, Ideal.hostDivf_def, sum16_at, spread_at, pick_at, iou_at,
    constant_apply]
  rfl

end Cert.KernelIdeal.Tail

end
-- ==== Proof.TileSums.lean ====
/-
  Sums of a pointwise function of two [16, 1, 1024, 1024] arrays, arranged three ways.

  The kernel walks each image in four horizontal tiles of 256 rows and keeps a running total per image that is reset
  at the image's first tile; the host adds whole images, or everything at once. Over a commutative monoid (here the
  extended reals) these are the same sums: the running total after an image's fourth tile is the sum over the image
  (`run_last`, `tiles_batch`), and the sum over every entry is the sum over the images of the image sums (`total_batches`).
  Entries are read by natural-number coordinates (`rd`, zero outside the array), so no index carries a proof.
-/
import Mathlib.Algebra.BigOperators.Fin
import Mathlib.Data.EReal.Basic
import Idealize.ShloMosaic.Lib.ValueIdx
import proofs.«167630_j28810640621718_1_alg».proof.Proof.LibIdxSums

noncomputable section

open scoped BigOperators

namespace Cert.TileSums

open Idealize.ShloMosaic Idealize.ShloMosaic.ValueIdx Cert.LibIdxSums

/-- The shape of the two mask arrays. -/
abbrev SX : Shape := ⟨4, ![16, 1, 1024, 1024]⟩

variable {M : Type} [AddCommMonoid M]

/-- Entry (b, 0, r, k) of an array, by natural-number coordinates; zero outside the array. -/
def rd (X : SX.Idx → EReal) (b r k : ℕ) : EReal :=
  if h : b < 16 ∧ r < 1024 ∧ k < 1024 then X (ix4 ⟨b, h.1⟩ (0 : Fin 1) ⟨r, h.2.1⟩ ⟨k, h.2.2⟩) else 0

theorem rd_val (X : SX.Idx → EReal) (b : Fin 16) (r k : Fin 1024) :
    rd X b.val r.val k.val = X (ix4 b (0 : Fin 1) r k) := by
  unfold rd
  rw [dif_pos ⟨b.isLt, r.isLt, k.isLt⟩]

/-- The sum of `f` over tile `n` of the walk: image `n / 4`, rows `256 (n % 4) … 256 (n % 4) + 255`. -/
def tile (f : EReal → EReal → M) (X T : SX.Idx → EReal) (n : ℕ) : M :=
  ∑ r : Fin 256, ∑ k : Fin 1024,
    f (rd X (n / 4) ((n % 4) * 256 + r.val) k.val) (rd T (n / 4) ((n % 4) * 256 + r.val) k.val)

/-- The sum of `f` over image `b`. -/
def batch (f : EReal → EReal → M) (X T : SX.Idx → EReal) (b : ℕ) : M :=
  ∑ c : Fin 1024, ∑ k : Fin 1024, f (rd X b c.val k.val) (rd T b c.val k.val)

/-- The running total after tile `n`: restarted from `z` at an image's first tile, else carried on. -/
def run (z : M) (f : EReal → EReal → M) (X T : SX.Idx → EReal) : ℕ → M
  | 0 => z + tile f X T 0
  | n + 1 => if (n + 1) % 4 = 0 then z + tile f X T (n + 1) else run z f X T n + tile f X T (n + 1)

theorem run_first (z : M) (f : EReal → EReal → M) (X T : SX.Idx → EReal) (n : ℕ) (h : n % 4 = 0) :
    run z f X T n = z + tile f X T n := by
  cases n with
  | zero => rfl
  | succ k => exact if_pos h

theorem run_next (z : M) (f : EReal → EReal → M) (X T : SX.Idx → EReal) (n : ℕ) (h : ¬(n + 1) % 4 = 0) :
    run z f X T (n + 1) = run z f X T n + tile f X T (n + 1) := if_neg h

/-- After an image's fourth tile the running total is `z` plus the four tile sums in order. -/
theorem run_last (z : M) (f : EReal → EReal → M) (X T : SX.Idx → EReal) (b : ℕ) :
    run z f X T (4 * b + 3)
      = z + tile f X T (4 * b) + tile f X T (4 * b + 1) + tile f X T (4 * b + 2) + tile f X T (4 * b + 3) := by
  rw [run_next z f X T (4 * b + 2) (by omega), run_next z f X T (4 * b + 1) (by omega),
    run_next z f X T (4 * b) (by omega), run_first z f X T (4 * b) (by omega)]

/-- The four tiles of image `b` make up the image. -/
theorem tiles_batch (f : EReal → EReal → M) (X T : SX.Idx → EReal) (b : ℕ) :
    tile f X T (4 * b) + tile f X T (4 * b + 1) + tile f X T (4 * b + 2) + tile f X T (4 * b + 3) = batch f X T b := by
  unfold batch
  rw [sum_fin_blocks 4 256 (fun c : Fin (4 * 256) => ∑ k : Fin 1024, f (rd X b c.val k.val) (rd T b c.val k.val)),
    Fin.sum_univ_four]
  have d0 : (4 * b) / 4 = b := by omega
  have d1 : (4 * b + 1) / 4 = b := by omega
  have d2 : (4 * b + 2) / 4 = b := by omega
  have d3 : (4 * b + 3) / 4 = b := by omega
  have m0 : (4 * b) % 4 = 0 := by omega
  have m1 : (4 * b + 1) % 4 = 1 := by omega
  have m2 : (4 * b + 2) % 4 = 2 := by omega
  have m3 : (4 * b + 3) % 4 = 3 := by omega
  simp only [tile, d0, d1, d2, d3, m0, m1, m2, m3]
  rfl

/-- So with `z = 0` the running total after an image's fourth tile is the image's sum. -/
theorem run_last_batch (f : EReal → EReal → M) (X T : SX.Idx → EReal) (b : ℕ) :
    run 0 f X T (4 * b + 3) = batch f X T b := by
  rw [run_last, zero_add, tiles_batch]

/-- The sum over every entry is the sum over the images of the image sums. -/
theorem total_batches (f : EReal → EReal → M) (X T : SX.Idx → EReal) :
    ∑ j : SX.Idx, f (X j) (T j) = ∑ b : Fin 16, batch f X T b.val := by
  rw [sum_idx4]
  refine Finset.sum_congr rfl fun b _ => ?_
  rw [Fin.sum_univ_one]
  unfold batch
  refine Finset.sum_congr rfl fun c _ => Finset.sum_congr rfl fun k _ => ?_
  rw [rd_val, rd_val]

end Cert.TileSums

end
-- ==== Proof.KernelValue.lean ====
/-
  The statistics kernel's run read as values.

  The grid walks image b = n / 4 and tile h = n % 4 at point n. Each of the seven accumulators is a [1, 1, 128] block whose
  every lane holds the same number: after point n, the running total of its per-pixel term over the tiles of the current
  image walked so far (zero-started at the image's first tile) — by induction on the point, from the body's two cases.
  An image's block is written back after its fourth tile, so each result array ends, at (b, 0, lane), at the total after
  point 4b + 3; the host lines after the call then turn lane 0 of the seven arrays and the predicted IoU into the loss.
-/
import proofs.«167630_j28810640621718_1_alg».proof.Proof.Patched.KernelIdeal.Frame
import proofs.«167630_j28810640621718_1_alg».proof.Proof.KernelPieces
import proofs.«167630_j28810640621718_1_alg».proof.Proof.KernelPayload
import proofs.«167630_j28810640621718_1_alg».proof.Proof.KernelTail
import proofs.«167630_j28810640621718_1_alg».proof.Proof.TileSums
import proofs.«167630_j28810640621718_1_alg».proof.Proof.LossFormula
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.KernelIdeal.Pieces Cert.KernelIdeal.Payload Cert.KernelIdeal.Tail
open Cert.PixelTerms Cert.TileSums Cert.LossFormula

variable (m : (ℓ : Loc nD τ sig) → Buf (Elt Ideal) ℓ) (ρ : Dev nD → PrngReg)

/-- The logits and the targets as launched. -/
abbrev logits (c : Dev nD) : SX.Idx → EReal := m ((c.tc : Thread nD τ).loc main_arg0)
abbrev targets (c : Dev nD) : SX.Idx → EReal := m ((c.tc : Thread nD τ).loc main_arg1)

/-! ## One tile -/

/-- A tile sum added to an accumulator: the pointwise array `v` is `f` of the two loaded tiles, and the tiles are tile `n`
    of the arrays `Xa`, `Ta`. -/
theorem step_eq (f : EReal → EReal → EReal) (v : FVec Ideal S256x1024 .f32) (x0 x1 : Vec Ideal S1x1x256x1024 .f32)
    (Xa Ta : SX.Idx → EReal) (n : ℕ)
    (hv : ∀ (r : Fin 256) (k : Fin 1024), v (ix2 r k) = f (x0 (ix4 (0 : Fin 1) (0 : Fin 1) r k)) (x1 (ix4 (0 : Fin 1) (0 : Fin 1) r k)))
    (h0 : ∀ (r : Fin 256) (k : Fin 1024), x0 (ix4 (0 : Fin 1) (0 : Fin 1) r k) = rd Xa (n / 4) (n % 4 * 256 + r.val) k.val)
    (h1 : ∀ (r : Fin 256) (k : Fin 1024), x1 (ix4 (0 : Fin 1) (0 : Fin 1) r k) = rd Ta (n / 4) (n % 4 * 256 + r.val) k.val)
    (xo : Vec Ideal S1x1x128 .f32) :
    k0_pay19 (F := Ideal) v xo = fun j => xo j + tile f Xa Ta n := by
  funext j
  rw [total_at]
  refine congrArg (xo j + ·) ?_
  unfold tile
  exact Finset.sum_congr rfl fun r _ => Finset.sum_congr rfl fun k _ => by rw [hv, h0, h1]

section steps
variable (x0 x1 : Vec Ideal S1x1x256x1024 .f32) (Xa Ta : SX.Idx → EReal) (n : ℕ)
  (h0 : ∀ (r : Fin 256) (k : Fin 1024), x0 (ix4 (0 : Fin 1) (0 : Fin 1) r k) = rd Xa (n / 4) (n % 4 * 256 + r.val) k.val)
  (h1 : ∀ (r : Fin 256) (k : Fin 1024), x1 (ix4 (0 : Fin 1) (0 : Fin 1) r k) = rd Ta (n / 4) (n % 4 * 256 + r.val) k.val)
  (xo : Vec Ideal S1x1x128 .f32)
include h0 h1

theorem step_2 : (k0_pay19 (k0_pay5 x0 x1) xo : Vec Ideal S1x1x128 .f32) = fun j => xo j + tile ce Xa Ta n :=
  step_eq ce (k0_pay5 x0 x1) x0 x1 Xa Ta n (ce_at x0 x1) h0 h1 xo

theorem step_3 : (k0_pay20 (k0_pay7 x0 x1) xo : Vec Ideal S1x1x128 .f32) = fun j => xo j + tile focal Xa Ta n :=
  step_eq focal (k0_pay7 x0 x1) x0 x1 Xa Ta n (focal_at x0 x1) h0 h1 xo

theorem step_4 : (k0_pay22 (k0_pay21 (k0_pay6 x0)) xo : Vec Ideal S1x1x128 .f32) = fun j => xo j + tile (fun x _ => sigm x) Xa Ta n :=
  step_eq (fun x _ => sigm x) (k0_pay6 x0) x0 x1 Xa Ta n (sig_at x0) h0 h1 xo

theorem step_5 : (k0_pay23 (k0_pay4 x1) xo : Vec Ideal S1x1x128 .f32) = fun j => xo j + tile (fun _ t => t) Xa Ta n :=
  step_eq (fun _ t => t) (k0_pay4 x1) x0 x1 Xa Ta n (targets_at x1) h0 h1 xo

theorem step_6 : (k0_pay24 (k0_pay10 (k0_pay4 x1) (k0_pay6 x0)) xo : Vec Ideal S1x1x128 .f32) = fun j => xo j + tile soft_t Xa Ta n :=
  step_eq soft_t (k0_pay10 (k0_pay4 x1) (k0_pay6 x0)) x0 x1 Xa Ta n (soft_t_at x0 x1) h0 h1 xo

theorem step_7 : (k0_pay1 (k0_pay25 (k0_pay11 (k0_pay4 x1) (k0_pay6 x0) k0_pay8)) xo : Vec Ideal S1x1x128 .f32) = fun j => xo j + tile hard_t Xa Ta n :=
  step_eq hard_t (k0_pay11 (k0_pay4 x1) (k0_pay6 x0) k0_pay8) x0 x1 Xa Ta n (hard_t_at x0 x1) h0 h1 xo

theorem step_8 : (k0_pay2 (k0_pay9 (k0_pay6 x0) k0_pay8) xo : Vec Ideal S1x1x128 .f32) = fun j => xo j + tile (fun x _ => hard x) Xa Ta n :=
  step_eq (fun x _ => hard x) (k0_pay9 (k0_pay6 x0) k0_pay8) x0 x1 Xa Ta n (hard_at x0) h0 h1 xo

end steps

/-! ## The tiles the windows read -/

theorem in_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0 :=
  (by decide +kernel : ∀ t : Fin grid0.N, _)

/-- The logits tile at point `t` is rows 256 (t % 4) … of image t / 4. -/
theorem logits_blk (c : Dev nD) (t : Fin cfg0.N) (r : Fin 256) (k : Fin 1024) :
    (iblk m c 0 t : Vec Ideal S1x1x256x1024 .f32) (ix4 (0 : Fin 1) (0 : Fin 1) r k)
      = rd (logits m c) (t.val / 4) (t.val % 4 * 256 + r.val) k.val := by
  have hN : t.val < 64 := lt_of_lt_of_eq t.isLt (show cfg0.N = 64 from N_0)
  have hr := r.isLt
  obtain ⟨e0, e1, e2, e3, -⟩ := in_facts t
  unfold iblk rd
  rw [View.read_apply, dif_pos ⟨by omega, by omega, k.isLt⟩]
  show V m c main_arg0 _ = m (c.tc.loc main_arg0) _
  unfold V
  refine congrArg _ (funext fun a => Fin.ext ?_)
  match a with
  | ⟨0, _⟩ => show win0_0.index t (0 : Fin 4) * 1 + 1 * 0 = t.val / 4; omega
  | ⟨1, _⟩ => show win0_0.index t (1 : Fin 4) * 1 + 1 * 0 = 0; omega
  | ⟨2, _⟩ => show win0_0.index t (2 : Fin 4) * 256 + 1 * r.val = t.val % 4 * 256 + r.val; omega
  | ⟨3, _⟩ => show win0_0.index t (3 : Fin 4) * 1024 + 1 * k.val = k.val; omega

theorem targets_blk (c : Dev nD) (t : Fin cfg0.N) (r : Fin 256) (k : Fin 1024) :
    (iblk m c 1 t : Vec Ideal S1x1x256x1024 .f32) (ix4 (0 : Fin 1) (0 : Fin 1) r k)
      = rd (targets m c) (t.val / 4) (t.val % 4 * 256 + r.val) k.val := by
  have hN : t.val < 64 := lt_of_lt_of_eq t.isLt (show cfg0.N = 64 from N_0)
  have hr := r.isLt
  obtain ⟨-, -, -, -, e0, e1, e2, e3⟩ := in_facts t
  unfold iblk rd
  rw [View.read_apply, dif_pos ⟨by omega, by omega, k.isLt⟩]
  show V m c main_arg1 _ = m (c.tc.loc main_arg1) _
  unfold V
  refine congrArg _ (funext fun a => Fin.ext ?_)
  match a with
  | ⟨0, _⟩ => show win0_1.index t (0 : Fin 4) * 1 + 1 * 0 = t.val / 4; omega
  | ⟨1, _⟩ => show win0_1.index t (1 : Fin 4) * 1 + 1 * 0 = 0; omega
  | ⟨2, _⟩ => show win0_1.index t (2 : Fin 4) * 256 + 1 * r.val = t.val % 4 * 256 + r.val; omega
  | ⟨3, _⟩ => show win0_1.index t (3 : Fin 4) * 1024 + 1 * k.val = k.val; omega

/-! ## The running totals, point by point -/

/-- The running total of `f` after point `n`, in every lane of an accumulator. -/
def acc (f : EReal → EReal → EReal) (c : Dev nD) (n : ℕ) : Vec Ideal S1x1x128 .f32 :=
  fun _ => run w0 f (logits m c) (targets m c) n

/-- The seven accumulators after point `n`. -/
def totals (c : Dev nD) (n : ℕ) : Vec Ideal S1x1x128 .f32 × Vec Ideal S1x1x128 .f32 × Vec Ideal S1x1x128 .f32 × Vec Ideal S1x1x128 .f32 × Vec Ideal S1x1x128 .f32 × Vec Ideal S1x1x128 .f32 × Vec Ideal S1x1x128 .f32 :=
  (acc m ce c n, acc m focal c n, acc m (fun x _ => sigm x) c n, acc m (fun _ t => t) c n, acc m soft_t c n, acc m hard_t c n, acc m (fun x _ => hard x) c n)

/-- A later tile carries the total on. -/
theorem run_step (f : EReal → EReal → EReal) (Xa Ta : SX.Idx → EReal) (n : ℕ) (h : ¬n % 4 = 0) :
    run w0 f Xa Ta (n - 1) + tile f Xa Ta n = run w0 f Xa Ta n := by
  obtain ⟨k, rfl⟩ : ∃ k, n = k + 1 := ⟨n - 1, by omega⟩
  exact (run_next w0 f Xa Ta k h).symm

section tuples
variable (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole)
  (x0 x1 : Vec Ideal S1x1x256x1024 .f32) (Xa Ta : SX.Idx → EReal) (n : ℕ)
  (h0 : ∀ (r : Fin 256) (k : Fin 1024), x0 (ix4 (0 : Fin 1) (0 : Fin 1) r k) = rd Xa (n / 4) (n % 4 * 256 + r.val) k.val)
  (h1 : ∀ (r : Fin 256) (k : Fin 1024), x1 (ix4 (0 : Fin 1) (0 : Fin 1) r k) = rd Ta (n / 4) (n % 4 * 256 + r.val) k.val)
include h0 h1

/-- The body at an image's first tile: every accumulator ends at the zero word plus the tile sum of its term. -/
theorem first_tile (hc0 : cond0_0 i) :
    (out0_A_2 c i arg2 harg2 arg3 harg3 arg4 harg4 arg5 harg5 arg6 harg6 arg7 harg7 arg8 harg8 arg9 harg9 arg10 harg10 hc0 x0 x1,
      out0_A_3 c i arg2 harg2 arg3 harg3 arg4 harg4 arg5 harg5 arg6 harg6 arg7 harg7 arg8 harg8 arg9 harg9 arg10 harg10 hc0 x0 x1,
      out0_A_4 c i arg2 harg2 arg3 harg3 arg4 harg4 arg5 harg5 arg6 harg6 arg7 harg7 arg8 harg8 arg9 harg9 arg10 harg10 hc0 x0 x1,
      out0_A_5 c i arg2 harg2 arg3 harg3 arg4 harg4 arg5 harg5 arg6 harg6 arg7 harg7 arg8 harg8 arg9 harg9 arg10 harg10 hc0 x0 x1,
      out0_A_6 c i arg2 harg2 arg3 harg3 arg4 harg4 arg5 harg5 arg6 harg6 arg7 harg7 arg8 harg8 arg9 harg9 arg10 harg10 hc0 x0 x1,
      out0_A_7 c i arg2 harg2 arg3 harg3 arg4 harg4 arg5 harg5 arg6 harg6 arg7 harg7 arg8 harg8 arg9 harg9 arg10 harg10 hc0 x0 x1,
      out0_A_8 c i arg2 harg2 arg3 harg3 arg4 harg4 arg5 harg5 arg6 harg6 arg7 harg7 arg8 harg8 arg9 harg9 arg10 harg10 hc0 x0 x1)
      = ((fun _ => w0 + tile ce Xa Ta n : Vec Ideal S1x1x128 .f32),
      (fun _ => w0 + tile focal Xa Ta n : Vec Ideal S1x1x128 .f32),
      (fun _ => w0 + tile (fun x _ => sigm x) Xa Ta n : Vec Ideal S1x1x128 .f32),
      (fun _ => w0 + tile (fun _ t => t) Xa Ta n : Vec Ideal S1x1x128 .f32),
      (fun _ => w0 + tile soft_t Xa Ta n : Vec Ideal S1x1x128 .f32),
      (fun _ => w0 + tile hard_t Xa Ta n : Vec Ideal S1x1x128 .f32),
      (fun _ => w0 + tile (fun x _ => hard x) Xa Ta n : Vec Ideal S1x1x128 .f32)) := by
  rw [out_A_2 c i arg2 harg2 arg3 harg3 arg4 harg4 arg5 harg5 arg6 harg6 arg7 harg7 arg8 harg8 arg9 harg9 arg10 harg10 hc0 x0 x1,
    out_A_3 c i arg2 harg2 arg3 harg3 arg4 harg4 arg5 harg5 arg6 harg6 arg7 harg7 arg8 harg8 arg9 harg9 arg10 harg10 hc0 x0 x1,
    out_A_4 c i arg2 harg2 arg3 harg3 arg4 harg4 arg5 harg5 arg6 harg6 arg7 harg7 arg8 harg8 arg9 harg9 arg10 harg10 hc0 x0 x1,
    out_A_5 c i arg2 harg2 arg3 harg3 arg4 harg4 arg5 harg5 arg6 harg6 arg7 harg7 arg8 harg8 arg9 harg9 arg10 harg10 hc0 x0 x1,
    out_A_6 c i arg2 harg2 arg3 harg3 arg4 harg4 arg5 harg5 arg6 harg6 arg7 harg7 arg8 harg8 arg9 harg9 arg10 harg10 hc0 x0 x1,
    out_A_7 c i arg2 harg2 arg3 harg3 arg4 harg4 arg5 harg5 arg6 harg6 arg7 harg7 arg8 harg8 arg9 harg9 arg10 harg10 hc0 x0 x1,
    out_A_8 c i arg2 harg2 arg3 harg3 arg4 harg4 arg5 harg5 arg6 harg6 arg7 harg7 arg8 harg8 arg9 harg9 arg10 harg10 hc0 x0 x1,
    step_2 x0 x1 Xa Ta n h0 h1 (k0_pay12 (F := Ideal)),
    step_3 x0 x1 Xa Ta n h0 h1 (k0_pay13 (F := Ideal)),
    step_4 x0 x1 Xa Ta n h0 h1 (k0_pay14 (F := Ideal)),
    step_5 x0 x1 Xa Ta n h0 h1 (k0_pay15 (F := Ideal)),
    step_6 x0 x1 Xa Ta n h0 h1 (k0_pay16 (F := Ideal)),
    step_7 x0 x1 Xa Ta n h0 h1 (k0_pay17 (F := Ideal)),
    step_8 x0 x1 Xa Ta n h0 h1 (k0_pay18 (F := Ideal))]
  rfl

/-- The body at a later tile: every accumulator ends at its previous contents plus the tile sum of its term. -/
theorem later_tile (hc0 : ¬cond0_0 i) (xo2 : Vec Ideal S1x1x128 .f32) (xo3 : Vec Ideal S1x1x128 .f32) (xo4 : Vec Ideal S1x1x128 .f32) (xo5 : Vec Ideal S1x1x128 .f32) (xo6 : Vec Ideal S1x1x128 .f32) (xo7 : Vec Ideal S1x1x128 .f32) (xo8 : Vec Ideal S1x1x128 .f32) :
    (out0_B_2 c i arg2 harg2 arg3 harg3 arg4 harg4 arg5 harg5 arg6 harg6 arg7 harg7 arg8 harg8 arg9 harg9 arg10 harg10 hc0 x0 x1 xo2 xo3 xo4 xo5 xo6 xo7 xo8,
      out0_B_3 c i arg2 harg2 arg3 harg3 arg4 harg4 arg5 harg5 arg6 harg6 arg7 harg7 arg8 harg8 arg9 harg9 arg10 harg10 hc0 x0 x1 xo2 xo3 xo4 xo5 xo6 xo7 xo8,
      out0_B_4 c i arg2 harg2 arg3 harg3 arg4 harg4 arg5 harg5 arg6 harg6 arg7 harg7 arg8 harg8 arg9 harg9 arg10 harg10 hc0 x0 x1 xo2 xo3 xo4 xo5 xo6 xo7 xo8,
      out0_B_5 c i arg2 harg2 arg3 harg3 arg4 harg4 arg5 harg5 arg6 harg6 arg7 harg7 arg8 harg8 arg9 harg9 arg10 harg10 hc0 x0 x1 xo2 xo3 xo4 xo5 xo6 xo7 xo8,
      out0_B_6 c i arg2 harg2 arg3 harg3 arg4 harg4 arg5 harg5 arg6 harg6 arg7 harg7 arg8 harg8 arg9 harg9 arg10 harg10 hc0 x0 x1 xo2 xo3 xo4 xo5 xo6 xo7 xo8,
      out0_B_7 c i arg2 harg2 arg3 harg3 arg4 harg4 arg5 harg5 arg6 harg6 arg7 harg7 arg8 harg8 arg9 harg9 arg10 harg10 hc0 x0 x1 xo2 xo3 xo4 xo5 xo6 xo7 xo8,
      out0_B_8 c i arg2 harg2 arg3 harg3 arg4 harg4 arg5 harg5 arg6 harg6 arg7 harg7 arg8 harg8 arg9 harg9 arg10 harg10 hc0 x0 x1 xo2 xo3 xo4 xo5 xo6 xo7 xo8)
      = ((fun j => xo2 j + tile ce Xa Ta n : Vec Ideal S1x1x128 .f32),
      (fun j => xo3 j + tile focal Xa Ta n : Vec Ideal S1x1x128 .f32),
      (fun j => xo4 j + tile (fun x _ => sigm x) Xa Ta n : Vec Ideal S1x1x128 .f32),
      (fun j => xo5 j + tile (fun _ t => t) Xa Ta n : Vec Ideal S1x1x128 .f32),
      (fun j => xo6 j + tile soft_t Xa Ta n : Vec Ideal S1x1x128 .f32),
      (fun j => xo7 j + tile hard_t Xa Ta n : Vec Ideal S1x1x128 .f32),
      (fun j => xo8 j + tile (fun x _ => hard x) Xa Ta n : Vec Ideal S1x1x128 .f32)) := by
  rw [out_B_2 c i arg2 harg2 arg3 harg3 arg4 harg4 arg5 harg5 arg6 harg6 arg7 harg7 arg8 harg8 arg9 harg9 arg10 harg10 hc0 x0 x1 xo2 xo3 xo4 xo5 xo6 xo7 xo8,
    out_B_3 c i arg2 harg2 arg3 harg3 arg4 harg4 arg5 harg5 arg6 harg6 arg7 harg7 arg8 harg8 arg9 harg9 arg10 harg10 hc0 x0 x1 xo2 xo3 xo4 xo5 xo6 xo7 xo8,
    out_B_4 c i arg2 harg2 arg3 harg3 arg4 harg4 arg5 harg5 arg6 harg6 arg7 harg7 arg8 harg8 arg9 harg9 arg10 harg10 hc0 x0 x1 xo2 xo3 xo4 xo5 xo6 xo7 xo8,
    out_B_5 c i arg2 harg2 arg3 harg3 arg4 harg4 arg5 harg5 arg6 harg6 arg7 harg7 arg8 harg8 arg9 harg9 arg10 harg10 hc0 x0 x1 xo2 xo3 xo4 xo5 xo6 xo7 xo8,
    out_B_6 c i arg2 harg2 arg3 harg3 arg4 harg4 arg5 harg5 arg6 harg6 arg7 harg7 arg8 harg8 arg9 harg9 arg10 harg10 hc0 x0 x1 xo2 xo3 xo4 xo5 xo6 xo7 xo8,
    out_B_7 c i arg2 harg2 arg3 harg3 arg4 harg4 arg5 harg5 arg6 harg6 arg7 harg7 arg8 harg8 arg9 harg9 arg10 harg10 hc0 x0 x1 xo2 xo3 xo4 xo5 xo6 xo7 xo8,
    out_B_8 c i arg2 harg2 arg3 harg3 arg4 harg4 arg5 harg5 arg6 harg6 arg7 harg7 arg8 harg8 arg9 harg9 arg10 harg10 hc0 x0 x1 xo2 xo3 xo4 xo5 xo6 xo7 xo8,
    step_2 x0 x1 Xa Ta n h0 h1 xo2,
    step_3 x0 x1 Xa Ta n h0 h1 xo3,
    step_4 x0 x1 Xa Ta n h0 h1 xo4,
    step_5 x0 x1 Xa Ta n h0 h1 xo5,
    step_6 x0 x1 Xa Ta n h0 h1 xo6,
    step_7 x0 x1 Xa Ta n h0 h1 xo7,
    step_8 x0 x1 Xa Ta n h0 h1 xo8]

end tuples

set_option maxHeartbeats 1600000 in
theorem point_eq (c : Dev nD) (t : Fin cfg0.N)
    (ih : ¬t.val % 4 = 0 → outsAt0 m c (t.val - 1) (Nat.lt_of_le_of_lt (Nat.sub_le _ _) t.isLt) = totals m c (t.val - 1)) :
    outsAt0 m c t.val t.isLt = totals m c t.val := by
  by_cases h4 : t.val % 4 = 0
  · rw [outsAt0_A m c t h4]
    refine (first_tile c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (logits m c) (targets m c) t.val
      (logits_blk m c t) (targets_blk m c t) ((hcond0_0 t).mpr h4)).trans ?_
    unfold totals acc
    rw [run_first w0 ce (logits m c) (targets m c) t.val h4,
      run_first w0 focal (logits m c) (targets m c) t.val h4,
      run_first w0 (fun x _ => sigm x) (logits m c) (targets m c) t.val h4,
      run_first w0 (fun _ t => t) (logits m c) (targets m c) t.val h4,
      run_first w0 soft_t (logits m c) (targets m c) t.val h4,
      run_first w0 hard_t (logits m c) (targets m c) t.val h4,
      run_first w0 (fun x _ => hard x) (logits m c) (targets m c) t.val h4]
  · rw [outsAt0_B m c t h4, ih h4]
    refine (later_tile c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (logits m c) (targets m c) t.val
      (logits_blk m c t) (targets_blk m c t) (fun h => h4 ((hcond0_0 t).mp h))
      (totals m c (t.val - 1)).1 (totals m c (t.val - 1)).2.1 (totals m c (t.val - 1)).2.2.1 (totals m c (t.val - 1)).2.2.2.1 (totals m c (t.val - 1)).2.2.2.2.1 (totals m c (t.val - 1)).2.2.2.2.2.1 (totals m c (t.val - 1)).2.2.2.2.2.2).trans ?_
    unfold totals acc
    dsimp only
    rw [run_step ce (logits m c) (targets m c) t.val h4,
      run_step focal (logits m c) (targets m c) t.val h4,
      run_step (fun x _ => sigm x) (logits m c) (targets m c) t.val h4,
      run_step (fun _ t => t) (logits m c) (targets m c) t.val h4,
      run_step soft_t (logits m c) (targets m c) t.val h4,
      run_step hard_t (logits m c) (targets m c) t.val h4,
      run_step (fun x _ => hard x) (logits m c) (targets m c) t.val h4]

/-- What the accumulators hold after every point: the running totals. -/
theorem outsAt_eq (c : Dev nD) : ∀ (n : ℕ) (h : n < cfg0.N), outsAt0 m c n h = totals m c n
  | 0, h => point_eq m c ⟨0, h⟩ (fun h4 => absurd rfl h4)
  | n + 1, h => point_eq m c ⟨n + 1, h⟩ (fun _ => outsAt_eq c n _)

end Cert.KernelIdeal.Stats

end
-- ==== Proof.KernelResult.lean ====
/-
  The kernel's seven result arrays and its loss.

  Image b's accumulator blocks are written back after point 4b + 3, and those sixteen blocks tile each [16, 1, 128] result
  array; so every result array ends, at (b, 0, lane), at the running total after point 4b + 3. The host lines after the
  call are then the loss formula of lane 0 of the seven arrays and of the predicted IoU.
-/
import proofs.«167630_j28810640621718_1_alg».proof.Proof.KernelValue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.KernelIdeal.Tail
open Cert.PixelTerms Cert.TileSums Cert.LossFormula

variable (m : (ℓ : Loc nD τ sig) → Buf (Elt Ideal) ℓ) (ρ : Dev nD → PrngReg)

/-- A result array: at (b, 0, lane) the running total of `f` after image b's fourth tile. -/
def stat (f : EReal → EReal → EReal) (c : Dev nD) : S16x1x128.Idx → EReal :=
  fun j => run w0 f (logits m c) (targets m c) (4 * (j 0).val + 3)

/-! ## Result 0 -/

theorem out_facts_2 : ∀ t : Fin cfg0.N,
    win0_2.index t (0 : Fin 3) = t.val / 4 ∧ win0_2.index t (1 : Fin 3) = 0 ∧ win0_2.index t (2 : Fin 3) = 0 :=
  (by decide +kernel : ∀ t : Fin grid0.N, _)

/-- What point `t` writes back (an image's last point) is block `t` of the result array. -/
theorem flushed_2 (c : Dev nD) (t : Fin cfg0.N) (hf : (cfg0.win 2).flush t = true) :
    (dats m 0 c).flushed 2 t = ((cfg0.win 2).blk t).view.read (Elt Ideal) (stat m ce c) := by
  have h3 : t.val % 4 = 3 := (flush0_2 t).mp hf
  obtain ⟨e0, -, -⟩ := out_facts_2 t
  show (cfg0.win 2).cut (grid0.coords t) ((dats m 0 c).after 2 t) = _
  rw [after0_2, outsAt_eq]
  funext y
  rw [View.read_apply]
  have hy : (y 0).val < 1 := (y 0).isLt
  show run w0 ce (logits m c) (targets m c) t.val
    = run w0 ce (logits m c) (targets m c) (4 * (win0_2.index t (0 : Fin 3) * 1 + 1 * (y 0).val) + 3)
  refine congrArg _ ?_
  omega

theorem mem_blk_2 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl

/-- Every entry of the result array is in the block some image's last point writes back. -/
theorem cover_2 (i : S16x1x128.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_2 t
  refine ⟨t, (flush0_2 t).mpr (by omega), ?_⟩
  rw [mem_blk_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

theorem final_2 (c : Dev nD) : (dats m 0 c).arrAt 2 cfg0.N = stat m ce c :=
  (dats m 0 c).arrAt_eq_of_cover 2 (stat m ce c) (flushed_2 m c) cover_2

/-! ## Result 1 -/

theorem out_facts_3 : ∀ t : Fin cfg0.N,
    win0_3.index t (0 : Fin 3) = t.val / 4 ∧ win0_3.index t (1 : Fin 3) = 0 ∧ win0_3.index t (2 : Fin 3) = 0 :=
  (by decide +kernel : ∀ t : Fin grid0.N, _)

/-- What point `t` writes back (an image's last point) is block `t` of the result array. -/
theorem flushed_3 (c : Dev nD) (t : Fin cfg0.N) (hf : (cfg0.win 3).flush t = true) :
    (dats m 0 c).flushed 3 t = ((cfg0.win 3).blk t).view.read (Elt Ideal) (stat m focal c) := by
  have h3 : t.val % 4 = 3 := (flush0_3 t).mp hf
  obtain ⟨e0, -, -⟩ := out_facts_3 t
  show (cfg0.win 3).cut (grid0.coords t) ((dats m 0 c).after 3 t) = _
  rw [after0_3, outsAt_eq]
  funext y
  rw [View.read_apply]
  have hy : (y 0).val < 1 := (y 0).isLt
  show run w0 focal (logits m c) (targets m c) t.val
    = run w0 focal (logits m c) (targets m c) (4 * (win0_3.index t (0 : Fin 3) * 1 + 1 * (y 0).val) + 3)
  refine congrArg _ ?_
  omega

theorem mem_blk_3 (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

/-- Every entry of the result array is in the block some image's last point writes back. -/
theorem cover_3 (i : S16x1x128.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_3 t
  refine ⟨t, (flush0_3 t).mpr (by omega), ?_⟩
  rw [mem_blk_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

theorem final_3 (c : Dev nD) : (dats m 0 c).arrAt 3 cfg0.N = stat m focal c :=
  (dats m 0 c).arrAt_eq_of_cover 3 (stat m focal c) (flushed_3 m c) cover_3

/-! ## Result 2 -/

theorem out_facts_4 : ∀ t : Fin cfg0.N,
    win0_4.index t (0 : Fin 3) = t.val / 4 ∧ win0_4.index t (1 : Fin 3) = 0 ∧ win0_4.index t (2 : Fin 3) = 0 :=
  (by decide +kernel : ∀ t : Fin grid0.N, _)

/-- What point `t` writes back (an image's last point) is block `t` of the result array. -/
theorem flushed_4 (c : Dev nD) (t : Fin cfg0.N) (hf : (cfg0.win 4).flush t = true) :
    (dats m 0 c).flushed 4 t = ((cfg0.win 4).blk t).view.read (Elt Ideal) (stat m (fun x _ => sigm x) c) := by
  have h3 : t.val % 4 = 3 := (flush0_4 t).mp hf
  obtain ⟨e0, -, -⟩ := out_facts_4 t
  show (cfg0.win 4).cut (grid0.coords t) ((dats m 0 c).after 4 t) = _
  rw [after0_4, outsAt_eq]
  funext y
  rw [View.read_apply]
  have hy : (y 0).val < 1 := (y 0).isLt
  show run w0 (fun x _ => sigm x) (logits m c) (targets m c) t.val
    = run w0 (fun x _ => sigm x) (logits m c) (targets m c) (4 * (win0_4.index t (0 : Fin 3) * 1 + 1 * (y 0).val) + 3)
  refine congrArg _ ?_
  omega

theorem mem_blk_4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_2).slice (win0_4.rect t)).set ↔ _
  rw [View.set_slice_whole, Rect.mem_set_unit]
  exact Iff.rfl

/-- Every entry of the result array is in the block some image's last point writes back. -/
theorem cover_4 (i : S16x1x128.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_4 t
  refine ⟨t, (flush0_4 t).mpr (by omega), ?_⟩
  rw [mem_blk_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

theorem final_4 (c : Dev nD) : (dats m 0 c).arrAt 4 cfg0.N = stat m (fun x _ => sigm x) c :=
  (dats m 0 c).arrAt_eq_of_cover 4 (stat m (fun x _ => sigm x) c) (flushed_4 m c) cover_4

/-! ## Result 3 -/

theorem out_facts_5 : ∀ t : Fin cfg0.N,
    win0_5.index t (0 : Fin 3) = t.val / 4 ∧ win0_5.index t (1 : Fin 3) = 0 ∧ win0_5.index t (2 : Fin 3) = 0 :=
  (by decide +kernel : ∀ t : Fin grid0.N, _)

/-- What point `t` writes back (an image's last point) is block `t` of the result array. -/
theorem flushed_5 (c : Dev nD) (t : Fin cfg0.N) (hf : (cfg0.win 5).flush t = true) :
    (dats m 0 c).flushed 5 t = ((cfg0.win 5).blk t).view.read (Elt Ideal) (stat m (fun _ t => t) c) := by
  have h3 : t.val % 4 = 3 := (flush0_5 t).mp hf
  obtain ⟨e0, -, -⟩ := out_facts_5 t
  show (cfg0.win 5).cut (grid0.coords t) ((dats m 0 c).after 5 t) = _
  rw [after0_5, outsAt_eq]
  funext y
  rw [View.read_apply]
  have hy : (y 0).val < 1 := (y 0).isLt
  show run w0 (fun _ t => t) (logits m c) (targets m c) t.val
    = run w0 (fun _ t => t) (logits m c) (targets m c) (4 * (win0_5.index t (0 : Fin 3) * 1 + 1 * (y 0).val) + 3)
  refine congrArg _ ?_
  omega

theorem mem_blk_5 (t : Fin cfg0.N) (i : S16x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v0_3).slice (win0_5.rect t)).set ↔ _
  rw [View.set_slice_whole, Rect.mem_set_unit]
  exact Iff.rfl

/-- Every entry of the result array is in the block some image's last point writes back. -/
theorem cover_5 (i : S16x1x128.Idx) :
    ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_5 t
  refine ⟨t, (flush0_5 t).mpr (by omega), ?_⟩
  rw [mem_blk_5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 128 ≤ (i 2).val ∧ (i 2).val < win0_5.index t (2 : Fin 3) * 128 + 128; omega

theorem final_5 (c : Dev nD) : (dats m 0 c).arrAt 5 cfg0.N = stat m (fun _ t => t) c :=
  (dats m 0 c).arrAt_eq_of_cover 5 (stat m (fun _ t => t) c) (flushed_5 m c) cover_5

/-! ## Result 4 -/

theorem out_facts_6 : ∀ t : Fin cfg0.N,
    win0_6.index t (0 : Fin 3) = t.val / 4 ∧ win0_6.index t (1 : Fin 3) = 0 ∧ win0_6.index t (2 : Fin 3) = 0 :=
  (by decide +kernel : ∀ t : Fin grid0.N, _)

/-- What point `t` writes back (an image's last point) is block `t` of the result array. -/
theorem flushed_6 (c : Dev nD) (t : Fin cfg0.N) (hf : (cfg0.win 6).flush t = true) :
    (dats m 0 c).flushed 6 t = ((cfg0.win 6).blk t).view.read (Elt Ideal) (stat m soft_t c) := by
  have h3 : t.val % 4 = 3 := (flush0_6 t).mp hf
  obtain ⟨e0, -, -⟩ := out_facts_6 t
  show (cfg0.win 6).cut (grid0.coords t) ((dats m 0 c).after 6 t) = _
  rw [after0_6, outsAt_eq]
  funext y
  rw [View.read_apply]
  have hy : (y 0).val < 1 := (y 0).isLt
  show run w0 soft_t (logits m c) (targets m c) t.val
    = run w0 soft_t (logits m c) (targets m c) (4 * (win0_6.index t (0 : Fin 3) * 1 + 1 * (y 0).val) + 3)
  refine congrArg _ ?_
  omega

theorem mem_blk_6 (t : Fin cfg0.N) (i : S16x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v0_4).slice (win0_6.rect t)).set ↔ _
  rw [View.set_slice_whole, Rect.mem_set_unit]
  exact Iff.rfl

/-- Every entry of the result array is in the block some image's last point writes back. -/
theorem cover_6 (i : S16x1x128.Idx) :
    ∃ t : Fin cfg0.N, (cfg0.win 6).flush t = true ∧ i ∈ ((cfg0.win 6).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_6 t
  refine ⟨t, (flush0_6 t).mpr (by omega), ?_⟩
  rw [mem_blk_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 128 ≤ (i 2).val ∧ (i 2).val < win0_6.index t (2 : Fin 3) * 128 + 128; omega

theorem final_6 (c : Dev nD) : (dats m 0 c).arrAt 6 cfg0.N = stat m soft_t c :=
  (dats m 0 c).arrAt_eq_of_cover 6 (stat m soft_t c) (flushed_6 m c) cover_6

/-! ## Result 5 -/

theorem out_facts_7 : ∀ t : Fin cfg0.N,
    win0_7.index t (0 : Fin 3) = t.val / 4 ∧ win0_7.index t (1 : Fin 3) = 0 ∧ win0_7.index t (2 : Fin 3) = 0 :=
  (by decide +kernel : ∀ t : Fin grid0.N, _)

/-- What point `t` writes back (an image's last point) is block `t` of the result array. -/
theorem flushed_7 (c : Dev nD) (t : Fin cfg0.N) (hf : (cfg0.win 7).flush t = true) :
    (dats m 0 c).flushed 7 t = ((cfg0.win 7).blk t).view.read (Elt Ideal) (stat m hard_t c) := by
  have h3 : t.val % 4 = 3 := (flush0_7 t).mp hf
  obtain ⟨e0, -, -⟩ := out_facts_7 t
  show (cfg0.win 7).cut (grid0.coords t) ((dats m 0 c).after 7 t) = _
  rw [after0_7, outsAt_eq]
  funext y
  rw [View.read_apply]
  have hy : (y 0).val < 1 := (y 0).isLt
  show run w0 hard_t (logits m c) (targets m c) t.val
    = run w0 hard_t (logits m c) (targets m c) (4 * (win0_7.index t (0 : Fin 3) * 1 + 1 * (y 0).val) + 3)
  refine congrArg _ ?_
  omega

theorem mem_blk_7 (t : Fin cfg0.N) (i : S16x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v0_5).slice (win0_7.rect t)).set ↔ _
  rw [View.set_slice_whole, Rect.mem_set_unit]
  exact Iff.rfl

/-- Every entry of the result array is in the block some image's last point writes back. -/
theorem cover_7 (i : S16x1x128.Idx) :
    ∃ t : Fin cfg0.N, (cfg0.win 7).flush t = true ∧ i ∈ ((cfg0.win 7).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_7 t
  refine ⟨t, (flush0_7 t).mpr (by omega), ?_⟩
  rw [mem_blk_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 128 ≤ (i 2).val ∧ (i 2).val < win0_7.index t (2 : Fin 3) * 128 + 128; omega

theorem final_7 (c : Dev nD) : (dats m 0 c).arrAt 7 cfg0.N = stat m hard_t c :=
  (dats m 0 c).arrAt_eq_of_cover 7 (stat m hard_t c) (flushed_7 m c) cover_7

/-! ## Result 6 -/

theorem out_facts_8 : ∀ t : Fin cfg0.N,
    win0_8.index t (0 : Fin 3) = t.val / 4 ∧ win0_8.index t (1 : Fin 3) = 0 ∧ win0_8.index t (2 : Fin 3) = 0 :=
  (by decide +kernel : ∀ t : Fin grid0.N, _)

/-- What point `t` writes back (an image's last point) is block `t` of the result array. -/
theorem flushed_8 (c : Dev nD) (t : Fin cfg0.N) (hf : (cfg0.win 8).flush t = true) :
    (dats m 0 c).flushed 8 t = ((cfg0.win 8).blk t).view.read (Elt Ideal) (stat m (fun x _ => hard x) c) := by
  have h3 : t.val % 4 = 3 := (flush0_8 t).mp hf
  obtain ⟨e0, -, -⟩ := out_facts_8 t
  show (cfg0.win 8).cut (grid0.coords t) ((dats m 0 c).after 8 t) = _
  rw [after0_8, outsAt_eq]
  funext y
  rw [View.read_apply]
  have hy : (y 0).val < 1 := (y 0).isLt
  show run w0 (fun x _ => hard x) (logits m c) (targets m c) t.val
    = run w0 (fun x _ => hard x) (logits m c) (targets m c) (4 * (win0_8.index t (0 : Fin 3) * 1 + 1 * (y 0).val) + 3)
  refine congrArg _ ?_
  omega

theorem mem_blk_8 (t : Fin cfg0.N) (i : S16x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v0_6).slice (win0_8.rect t)).set ↔ _
  rw [View.set_slice_whole, Rect.mem_set_unit]
  exact Iff.rfl

/-- Every entry of the result array is in the block some image's last point writes back. -/
theorem cover_8 (i : S16x1x128.Idx) :
    ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 128 := (i 2).isLt
  have hN : cfg0.N = 64 := N_0
  obtain ⟨t, tv⟩ : ∃ t : Fin cfg0.N, t.val = 4 * (i 0).val + 3 := ⟨⟨4 * (i 0).val + 3, by omega⟩, rfl⟩
  obtain ⟨e0, e1, e2⟩ := out_facts_8 t
  refine ⟨t, (flush0_8 t).mpr (by omega), ?_⟩
  rw [mem_blk_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1 ≤ (i 1).val ∧ (i 1).val < win0_8.index t (1 : Fin 3) * 1 + 1; omega
  | ⟨2, _⟩ => show win0_8.index t (2 : Fin 3) * 128 ≤ (i 2).val ∧ (i 2).val < win0_8.index t (2 : Fin 3) * 128 + 128; omega

theorem final_8 (c : Dev nD) : (dats m 0 c).arrAt 8 cfg0.N = stat m (fun x _ => hard x) c :=
  (dats m 0 c).arrAt_eq_of_cover 8 (stat m (fun x _ => hard x) c) (flushed_8 m c) cover_8

/-! ## The host lines after the call -/

set_option maxHeartbeats 1600000 in
/-- The host lines after the call, run from any contents of the buffers: their result is `tailFn` of the seven result
    arrays' and %arg2's contents. -/
theorem tail_fn (V : Valuation τ sig (Elt Ideal)) :
    StableHlo.after (hostOps1 (F := Ideal)) V (Proc.devRef .tc main_v47)
      = tailFn (F := Ideal) (V (Proc.devRef .tc main_v0_0)) (V (Proc.devRef .tc main_v0_1)) (V (Proc.devRef .tc main_v0_2)) (V (Proc.devRef .tc main_v0_3)) (V (Proc.devRef .tc main_v0_4)) (V (Proc.devRef .tc main_v0_5)) (V (Proc.devRef .tc main_v0_6)) (V (Proc.devRef .tc main_arg2)) := by
  after_results
  unfold tailFn pick spread sum16
  rfl

theorem arr_2 (c : Dev nD) :
    Pipeline.withArrays (cfgs 0).spec c (V0 m c) (fun w => (dats m 0 c).arrAt w (cfgs 0).N) (Proc.devRef .tc main_v0_0)
      = stat m ce c :=
  (Pipeline.withArrays_arr spec0 launch0.win.arr_inj c (V0 m c) (fun w => (dats m 0 c).arrAt w (cfgs 0).N) 2).trans (final_2 m c)

theorem arr_3 (c : Dev nD) :
    Pipeline.withArrays (cfgs 0).spec c (V0 m c) (fun w => (dats m 0 c).arrAt w (cfgs 0).N) (Proc.devRef .tc main_v0_1)
      = stat m focal c :=
  (Pipeline.withArrays_arr spec0 launch0.win.arr_inj c (V0 m c) (fun w => (dats m 0 c).arrAt w (cfgs 0).N) 3).trans (final_3 m c)

theorem arr_4 (c : Dev nD) :
    Pipeline.withArrays (cfgs 0).spec c (V0 m c) (fun w => (dats m 0 c).arrAt w (cfgs 0).N) (Proc.devRef .tc main_v0_2)
      = stat m (fun x _ => sigm x) c :=
  (Pipeline.withArrays_arr spec0 launch0.win.arr_inj c (V0 m c) (fun w => (dats m 0 c).arrAt w (cfgs 0).N) 4).trans (final_4 m c)

theorem arr_5 (c : Dev nD) :
    Pipeline.withArrays (cfgs 0).spec c (V0 m c) (fun w => (dats m 0 c).arrAt w (cfgs 0).N) (Proc.devRef .tc main_v0_3)
      = stat m (fun _ t => t) c :=
  (Pipeline.withArrays_arr spec0 launch0.win.arr_inj c (V0 m c) (fun w => (dats m 0 c).arrAt w (cfgs 0).N) 5).trans (final_5 m c)

theorem arr_6 (c : Dev nD) :
    Pipeline.withArrays (cfgs 0).spec c (V0 m c) (fun w => (dats m 0 c).arrAt w (cfgs 0).N) (Proc.devRef .tc main_v0_4)
      = stat m soft_t c :=
  (Pipeline.withArrays_arr spec0 launch0.win.arr_inj c (V0 m c) (fun w => (dats m 0 c).arrAt w (cfgs 0).N) 6).trans (final_6 m c)

theorem arr_7 (c : Dev nD) :
    Pipeline.withArrays (cfgs 0).spec c (V0 m c) (fun w => (dats m 0 c).arrAt w (cfgs 0).N) (Proc.devRef .tc main_v0_5)
      = stat m hard_t c :=
  (Pipeline.withArrays_arr spec0 launch0.win.arr_inj c (V0 m c) (fun w => (dats m 0 c).arrAt w (cfgs 0).N) 7).trans (final_7 m c)

theorem arr_8 (c : Dev nD) :
    Pipeline.withArrays (cfgs 0).spec c (V0 m c) (fun w => (dats m 0 c).arrAt w (cfgs 0).N) (Proc.devRef .tc main_v0_6)
      = stat m (fun x _ => hard x) c :=
  (Pipeline.withArrays_arr spec0 launch0.win.arr_inj c (V0 m c) (fun w => (dats m 0 c).arrAt w (cfgs 0).N) 8).trans (final_8 m c)

theorem arr_iou (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)

theorem tail_value (c : Dev nD) :
    Pipeline.afterTail₀ cfgs (dats m) 0 (V0 m) [hostOps1] c main_v47
      = tailFn (F := Ideal) (stat m ce c) (stat m focal c) (stat m (fun x _ => sigm x) c) (stat m (fun _ t => t) c) (stat m soft_t c) (stat m hard_t c) (stat m (fun x _ => hard x) c) (m ((c.tc : Thread nD τ).loc main_arg2)) := by
  unfold Pipeline.afterTail₀
  show StableHlo.after hostOps1 _ (Proc.devRef .tc main_v47) = _
  rw [tail_fn, arr_2 m c, arr_3 m c, arr_4 m c, arr_5 m c, arr_6 m c, arr_7 m c, arr_8 m c, arr_iou m c]

/-- The kernel's loss, as the contents of its result buffer. -/
def result (c : Dev nD) : Buf (Elt Ideal) ((c.tc : Thread nD τ).loc main_v47) :=
  tailFn (F := Ideal) (stat m ce c) (stat m focal c) (stat m (fun x _ => sigm x) c) (stat m (fun _ t => t) c) (stat m soft_t c) (stat m hard_t c) (stat m (fun x _ => hard x) c) (m ((c.tc : Thread nD τ).loc main_arg2))

/-- It is the loss formula of the running totals after each image's fourth tile. -/
theorem result_at (c : Dev nD) (j : S_.Idx) :
    result m c j
      = loss (fun b => run w0 ce (logits m c) (targets m c) (4 * b.val + 3))
          (fun b => run w0 focal (logits m c) (targets m c) (4 * b.val + 3))
          (fun b => run w0 (fun x _ => sigm x) (logits m c) (targets m c) (4 * b.val + 3))
          (fun b => run w0 (fun _ t => t) (logits m c) (targets m c) (4 * b.val + 3))
          (fun b => run w0 soft_t (logits m c) (targets m c) (4 * b.val + 3))
          (fun b => run w0 hard_t (logits m c) (targets m c) (4 * b.val + 3))
          (fun b => run w0 (fun x _ => hard x) (logits m c) (targets m c) (4 * b.val + 3))
          (fun b => m ((c.tc : Thread nD τ).loc main_arg2) (ix2 b (0 : Fin 1))) := by
  unfold result
  rw [tail_at]
  rfl

/-- The run, read: the result buffer at the kernel's loss, the arguments unchanged. -/
theorem kernel_run : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v47 (Pipeline.mem_restRefs_of main_v47 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Stats

end
-- ==== Proof.ReferenceLoss.lean ====
/-
  The reference's result read as the loss formula of per-image sums.

  Pixel by pixel the reference's stages are the per-pixel terms of Proof/PixelTerms.lean: its softplus differs from the
  kernel's only in writing −|x| for 0 − |x|, its sigmoid is the same quotient, its thresholded prediction reads the
  comparison bit unsigned, and its (1 − p_t)^2.0 is the product (1 − p_t)(1 − p_t) when the logit and the target are real
  numbers. Its sums over the two trailing axes, over all but the first axis, and over everything are the per-image sums
  and their total (Proof/TileSums.lean), so its result is the loss formula (Proof/LossFormula.lean) of those sums.
-/
import proofs.«167630_j28810640621718_1_alg».proof.Proof.Gen.ReferenceIdeal.Read
import proofs.«167630_j28810640621718_1_alg».proof.Proof.PixelTerms
import proofs.«167630_j28810640621718_1_alg».proof.Proof.TileSums
import proofs.«167630_j28810640621718_1_alg».proof.Proof.LossFormula
import proofs.«167630_j28810640621718_1_alg».proof.Proof.LibPlaneSums
import proofs.«167630_j28810640621718_1_alg».proof.Proof.LibIdxSums
import Idealize.ShloMosaic.Lib.ValueIdx

noncomputable section

open scoped BigOperators

namespace Cert.ReferenceIdeal.Loss

open Idealize.ShloMosaic Idealize.ShloMosaic.ValueIdx Cert.ReferenceIdeal Cert.ReferenceIdeal.Read
open Cert.PixelTerms Cert.TileSums Cert.LossFormula Cert.LibPlaneSums Cert.LibIdxSums Cert.ReferenceIdeal.Facts₀

variable (X T : FVec Ideal S16x1x1024x1024 .f32) (A : FVec Ideal S16x1 .f32)

/-! ## Pixel by pixel -/

theorem sig_px (i : S16x1x1024x1024.Idx) : val_main_v8 (F := Ideal) X i = sigm (X i) := by
  simp only [val_main_v8_apply, val_main_v7_apply, val_main_cst_0_apply, val_main_v6_apply, val_main_v5_apply, val_main_cst_apply, val_main_v4_apply, val_main_v3_apply]
  show Ideal.div w1 (w1 + Ideal.exp (-(X i))) = Ideal.div 1 (1 + Ideal.exp (-(X i)))
  rw [w1_eq, EReal.coe_one]

theorem ce_px (i : S16x1x1024x1024.Idx) : val_main_v2 (F := Ideal) X T i = ce (X i) (T i) := by
  simp only [val_main_v2_apply, val_main_v1_apply, val_main_v0_apply, val_main_call0_v4_apply, val_main_call0_v3_apply, val_main_call0_v2_apply, val_main_call0_cst_apply, val_main_call0_v6_apply, val_main_call0_v5_apply, val_main_call0_v11_apply, val_main_call0_v1_apply, val_main_call0_v0_apply, val_main_call0_v10_apply, val_main_call0_v9_apply, val_main_call0_v8_apply, val_main_call0_v7_apply]
  unfold ce
  rw [neg_two_ways]
  rfl

theorem miss_px (i : S16x1x1024x1024.Idx) : val_main_v25 (F := Ideal) X T i = miss (X i) (T i) := by
  simp only [val_main_v25_apply, val_main_v24_apply, val_main_cst_6_apply, val_main_v15_apply, val_main_v9_apply, val_main_v14_apply, val_main_v11_apply, val_main_v10_apply, val_main_cst_1_apply, val_main_v13_apply, val_main_v12_apply, val_main_cst_2_apply, sig_px]
  rfl

theorem weighted_px (i : S16x1x1024x1024.Idx) : val_main_v23 (F := Ideal) X T i = weighted (X i) (T i) := by
  simp only [val_main_v23_apply, val_main_v22_apply, val_main_v17_apply, val_main_v16_apply, val_main_cst_3_apply, val_main_v21_apply, val_main_v20_apply, val_main_cst_5_apply, val_main_v19_apply, val_main_v18_apply, val_main_cst_4_apply, ce_px]
  rfl

theorem focal_px (hX : ∀ i, ∃ r : ℝ, X i = (r : EReal)) (hT : ∀ i, ∃ r : ℝ, T i = (r : EReal)) (i : S16x1x1024x1024.Idx) :
    val_main_v28 (F := Ideal) X T i = focal (X i) (T i) := by
  rw [val_main_v28_apply, val_main_v27_apply, val_main_v26_apply, val_main_cst_7_apply, weighted_px, miss_px]
  obtain ⟨r, hr⟩ := hX i
  obtain ⟨u, hu⟩ := hT i
  obtain ⟨q, hq⟩ := miss_real r u
  show weighted (X i) (T i) * Ideal.pow (miss (X i) (T i)) w2 = weighted (X i) (T i) * (miss (X i) (T i) * miss (X i) (T i))
  rw [hr, hu, hq, pow_two]

theorem soft_t_px (i : S16x1x1024x1024.Idx) : val_main_v31 (F := Ideal) X T i = soft_t (X i) (T i) := by
  rw [val_main_v31_apply, sig_px]
  rfl

theorem hard_px (i : S16x1x1024x1024.Idx) : val_main_v54 (F := Ideal) X i = hard (X i) := by
  simp only [val_main_v54_apply, val_main_v53_apply, val_main_v52_apply, val_main_cst_23_apply, sig_px]
  exact (bit_two_ways _).symm

theorem hard_t_px (i : S16x1x1024x1024.Idx) : val_main_v55 (F := Ideal) X T i = hard_t (X i) (T i) := by
  rw [val_main_v55_apply, hard_px]
  rfl

/-! ## The sums -/

/-- The double sum over image `b` of a stage that is pointwise `f` is the image sum of `f`. -/
theorem image_sum (f : EReal → EReal → EReal) (g : S16x1x1024x1024.Idx → EReal) (hg : ∀ i, g i = f (X i) (T i)) (b : Fin 16) :
    ∑ c : Fin 1024, ∑ d : Fin 1024, g (ix4 b (0 : Fin 1) c d) = batch f X T b.val := by
  unfold batch
  refine Finset.sum_congr rfl fun c _ => Finset.sum_congr rfl fun d _ => ?_
  rw [hg, rd_val, rd_val]

theorem total_sum (f : EReal → EReal → EReal) (g : S16x1x1024x1024.Idx → EReal) (hg : ∀ i, g i = f (X i) (T i)) :
    ∑ i, g i = ∑ b : Fin 16, batch f X T b.val := by
  rw [← total_batches]
  exact Finset.sum_congr rfl fun i _ => hg i

theorem planes_at (f : EReal → EReal → EReal) (g : FVec Ideal S16x1x1024x1024 .f32) (v : FVec Ideal S_ .f32)
    (hg : ∀ i, g i = f (X i) (T i)) (hv : ∀ i, v i = w0) (b : Fin 16) (u : Fin 1) :
    Host.reduceAdd g v reducesTo_S16x1x1024x1024_S16x1_d2_3 h_S_ (ix2 b u) = w0 + batch f X T b.val := by
  simp only [Host.reduceAdd, Ideal.hostReduceAdd_def]
  rw [hostSum_planes, hv, image_sum X T f g hg]

theorem images_at (f : EReal → EReal → EReal) (g : FVec Ideal S16x1x1024x1024 .f32) (v : FVec Ideal S_ .f32)
    (hg : ∀ i, g i = f (X i) (T i)) (hv : ∀ i, v i = w0) (b : Fin 16) :
    Host.reduceAdd g v reducesTo_S16x1x1024x1024_S16_d1_2_3 h_S_ (ix1 b) = w0 + batch f X T b.val := by
  simp only [Host.reduceAdd, Ideal.hostReduceAdd_def]
  rw [hostSum_images, hv, image_sum X T f g hg]

/-- The reference's result is the loss formula of the per-image sums, each started from the zero word. -/
theorem ref_loss (hX : ∀ i, ∃ r : ℝ, X i = (r : EReal)) (hT : ∀ i, ∃ r : ℝ, T i = (r : EReal)) (j : S_.Idx) :
    val_main_v72 (F := Ideal) X T A j
      = loss (fun b => batch ce X T b.val) (fun b => batch focal X T b.val)
          (fun b => w0 + batch (fun x _ => sigm x) X T b.val) (fun b => w0 + batch (fun _ t => t) X T b.val)
          (fun b => w0 + batch soft_t X T b.val) (fun b => w0 + batch hard_t X T b.val)
          (fun b => w0 + batch (fun x _ => hard x) X T b.val) (fun b => A (ix2 b (0 : Fin 1))) := by
  have e29 : val_main_v29 (F := Ideal) X T = fun _ => w0 + ∑ b : Fin 16, batch focal X T b.val := by
    funext k
    rw [val_main_v29_apply, total_sum X T focal _ (focal_px X T hX hT)]
    rfl
  have e46 : val_main_v46 (F := Ideal) X T = fun _ => w0 + ∑ b : Fin 16, batch ce X T b.val := by
    funext k
    rw [val_main_v46_apply, total_sum X T ce _ (ce_px X T)]
    rfl
  have e32 : ∀ b u, val_main_v32 (F := Ideal) X T (ix2 b u) = w0 + batch soft_t X T b.val :=
    fun b u => planes_at X T soft_t _ _ (soft_t_px X T) (fun _ => rfl) b u
  have e33 : ∀ b u, val_main_v33 (F := Ideal) X (ix2 b u) = w0 + batch (fun x _ => sigm x) X T b.val :=
    fun b u => planes_at X T (fun x _ => sigm x) _ _ (sig_px X) (fun _ => rfl) b u
  have e34 : ∀ b u, val_main_v34 (F := Ideal) T (ix2 b u) = w0 + batch (fun _ t => t) X T b.val :=
    fun b u => planes_at X T (fun _ t => t) _ _ (fun _ => rfl) (fun _ => rfl) b u
  have e56 : ∀ b, val_main_v56 (F := Ideal) X T (ix1 b) = w0 + batch hard_t X T b.val :=
    fun b => images_at X T hard_t _ _ (hard_t_px X T) (fun _ => rfl) b
  have e57 : ∀ b, val_main_v57 (F := Ideal) X (ix1 b) = w0 + batch (fun x _ => hard x) X T b.val :=
    fun b => images_at X T (fun x _ => hard x) _ _ (hard_px X) (fun _ => rfl) b
  have e58 : ∀ b, val_main_v58 (F := Ideal) T (ix1 b) = w0 + batch (fun _ t => t) X T b.val :=
    fun b => images_at X T (fun _ t => t) _ _ (fun _ => rfl) (fun _ => rfl) b
  have e43 : val_main_v43 (F := Ideal) X T j = w0 + ∑ b : Fin 16, val_main_v42 (F := Ideal) X T (ix2 b (0 : Fin 1)) := by
    rw [val_main_v43_apply, sum_idx2]
    congr 1
    exact Finset.sum_congr rfl fun b _ => Fin.sum_univ_one _
  have e69 : val_main_v69 (F := Ideal) X T A j = w0 + ∑ b : Fin 16, val_main_v68 (F := Ideal) X T A (ix1 b) := by
    rw [val_main_v69_apply, sum_idx1]
    rfl
  have e66 : ∀ b : Fin 16, val_main_v66 (F := Ideal) A (ix1 b) = A (ix2 b (0 : Fin 1)) := by
    intro b
    rw [val_main_v66_apply]
    refine congrArg A (funext fun a => Fin.ext ?_)
    match a with
    | ⟨0, _⟩ => show b.val / 1 = b.val; omega
    | ⟨1, _⟩ => rfl
  unfold loss ratio actual
  simp only [val_main_v72_apply, val_main_v51_apply, val_main_v71_apply, val_main_cst_31_apply, val_main_v70_apply, val_main_cst_30_apply, val_main_v49_apply, val_main_v50_apply, val_main_cst_22_apply, val_main_v48_apply, val_main_cst_21_apply, val_main_v47_apply, val_main_cst_20_apply, val_main_v30_apply, val_main_cst_9_apply, val_main_v45_apply, val_main_cst_18_apply, val_main_v44_apply, val_main_cst_17_apply,
    e43, e69, val_main_v42_apply, val_main_v39_apply, val_main_v41_apply, val_main_v37_apply, val_main_v36_apply, val_main_cst_13_apply, val_main_v38_apply, val_main_cst_14_apply, val_main_v40_apply, val_main_cst_15_apply, val_main_v35_apply, val_main_v68_apply, val_main_v67_apply, val_main_v65_apply, val_main_v62_apply, val_main_v64_apply, val_main_v61_apply, val_main_cst_27_apply, val_main_v63_apply, val_main_cst_28_apply, val_main_v60_apply, val_main_v59_apply,
    e29, e46, e32, e33, e34, e56, e57, e58, e66]
  rfl

end Cert.ReferenceIdeal.Loss

end
-- ==== Proof.FiniteInputs.lean ====
/-
  The precondition read entry by entry: when `all(|x| < +inf)` holds of the logits and of the targets, every entry of
  both arrays is a real number (an extended real whose absolute value is below +inf is neither infinity).
-/
import proofs.«167630_j28810640621718_1_alg».proof.Pre_finite_inputs
import proofs.«167630_j28810640621718_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun a b => funext fun d => d.elim0⟩

/-- An extended real whose absolute value compares below the +inf word is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every logit and every target is a real. -/
theorem reals_of_pre (X T : FVec Ideal S16x1x1024x1024 .f32) (A : FVec Ideal S16x1 .f32)
    (h : fn (F := Ideal) X T A = fun _ => 1#1) :
    (∀ i, ∃ r : ℝ, X i = (r : EReal)) ∧ (∀ i, ∃ r : ℝ, T i = (r : EReal)) := by
  have h0 := congrFun h ValueIdx.ix0
  dsimp only [fn] at h0
  obtain ⟨h01, _⟩ := IntOp.andi_eq_one.mp h0
  obtain ⟨hX, hT⟩ := IntOp.andi_eq_one.mp h01
  exact ⟨fun i => real_of_abs_lt (X i) (Host.reduce_andi_all _ _ _ _ ValueIdx.ix0 hX i),
    fun i => real_of_abs_lt (T i) (Host.reduce_andi_all _ _ _ _ ValueIdx.ix0 hT i)⟩

end Cert.FiniteInputs

end
-- ==== Proof.lean ====
/-
  The segmentation loss (focal + dice + boundary-weighted cross-entropy + IoU auxiliary term) computed by a streaming
  statistics kernel against its plain array reference: both are the same function of the inputs on the extended reals
  when every logit and target is a real number.

  The kernel streams the [16, 1, 1024, 1024] logits and targets through in 64 tiles of 256 rows, keeps seven per-image
  running sums (cross-entropy, focal term, sigmoid, target, sigmoid × target, [p > 1/2] × target, [p > 1/2]) and
  combines the 7 × 16 sums on the host; the reference sums whole arrays — over everything for the two means, per image
  for the dice and IoU terms — and writes the focal weight as a power. The per-image sums agree because a sum over an
  image is the sum of its four tile sums in any order (Proof/TileSums.lean); the per-pixel terms agree pointwise, the
  power (1 − p_t)^2.0 being the product (1 − p_t)(1 − p_t) for real inputs, which is where the precondition is used
  (Proof/PixelTerms.lean, Proof/ReferenceLoss.lean, Proof/FiniteInputs.lean); and the host arithmetic after the sums is
  one formula on both sides (Proof/LossFormula.lean, Proof/KernelTail.lean). The kernel's accumulators are followed point
  by point in Proof/KernelValue.lean and its result arrays and loss read in Proof/KernelResult.lean. The idealization
  rewrote no operation, so the preservation claim is trivial; the three frame claims are the generated runs.
-/
import proofs.«167630_j28810640621718_1_alg».proof.Defs
import proofs.«167630_j28810640621718_1_alg».proof.Proof.Gen.Kernel
import proofs.«167630_j28810640621718_1_alg».proof.Proof.Patched.Kernel.Frame
import proofs.«167630_j28810640621718_1_alg».proof.Proof.Gen.KernelIdeal
import proofs.«167630_j28810640621718_1_alg».proof.Proof.Patched.KernelIdeal.Frame
import proofs.«167630_j28810640621718_1_alg».proof.Proof.Gen.ReferenceIdeal
import proofs.«167630_j28810640621718_1_alg».proof.Proof.Gen.ReferenceIdeal.Run
import proofs.«167630_j28810640621718_1_alg».proof.Proof.Gen.ReferenceIdeal.Read
import proofs.«167630_j28810640621718_1_alg».proof.Proof.Gen.Pre_finite_inputs
import proofs.«167630_j28810640621718_1_alg».proof.Proof.KernelResult
import proofs.«167630_j28810640621718_1_alg».proof.Proof.ReferenceLoss
import proofs.«167630_j28810640621718_1_alg».proof.Proof.FiniteInputs
import Idealize.ShloMosaic.Adequacy
import Idealize.ShloMosaic.Init

noncomputable section

namespace Cert.Proof

open Idealize.ShloMosaic Idealize.ShloMosaic.TcCoe Idealize.SL.Sem
open Cert.PixelTerms Cert.TileSums Cert.LossFormula

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss formula of the same per-image sums: the kernel's running totals after each image's
    fourth tile are the image sums, and the reference's zero-started per-image sums are the image sums. -/
theorem algebraic : Cert.algebraic_KernelIdeal_ReferenceIdeal := by
  intro m ρ m' ρ' hpre hagree
  refine ⟨fun c => Cert.KernelIdeal.Stats.result m c, Cert.KernelIdeal.Stats.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hX, hT⟩ := Cert.FiniteInputs.reals_of_pre _ _ _ (hpre c)
  rw [Cert.ReferenceIdeal.Read.val_main_v72_eq, (hagree c).1, (hagree c).2.1, (hagree c).2.2]
  funext j
  rw [Cert.ReferenceIdeal.Loss.ref_loss _ _ _ hX hT j]
  show _ = Cert.KernelIdeal.Stats.result m c j
  rw [Cert.KernelIdeal.Stats.result_at]
  have hk : ∀ (f : EReal → EReal → EReal) (X T : SX.Idx → EReal) (b : ℕ), run w0 f X T (4 * b + 3) = batch f X T b :=
    fun f X T b => by rw [w0_eq]; exact run_last_batch f X T b
  have hr : ∀ (f : EReal → EReal → EReal) (X T : SX.Idx → EReal) (b : ℕ), w0 + batch f X T b = batch f X T b :=
    fun f X T b => by rw [w0_eq, zero_add]
  simp only [hk, hr]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
